-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S138x1024 : S_.BroadcastsInDim S138x1024 (![] : Fin 0 → Fin S138x1024.rank)
  reducesTo_S138x1024_S_d0_1 : S138x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S138x1024 .f32) (main_arg6 : FVec F S1024 .f32) (main_arg7 : FVec F S1024x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S138x1024 .f32 := Host.absf main_arg5
  let main_cst_8 : FVec F S_ .f32 := constant S_ .f32 0x7F800000#32
  let main_v25 : FVec F S138x1024 .f32 := broadcastInDim S138x1024 ![] bcast_S_S138x1024 main_cst_8
  let main_v26 : IVec S138x1024 1 := cmpf .olt main_v24 main_v25
  let main_c_9 : IVec S_ 1 := constantI S_ 1 1#1
  let main_v27 : IVec S_ 1 := (fun x v => Host.reduce IntOp.andi x v reducesTo_S138x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S50000x10 .f32) (main_arg1 : FVec F S10x128 .f32) (main_arg2 : FVec F S128 .f32) (main_arg3 : FVec F S128x128 .f32) (main_arg4 : FVec F S128 .f32) (main_arg5 : FVec F S138x1024 .f32) (main_arg6 : FVec F S1024 .f32) (main_arg7 : FVec F S1024x1 .f32) (main_arg8 : FVec F S1 .f32) (main_arg9 : IVec S2x600000 32) : IVec S_ 1 :=
  let main_v0 : FVec F S50000x10 .f32 := Host.absf main_arg0
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x10 : Shape := ⟨2, ![650000, 10]⟩
abbrev S1x128 : Shape := ⟨2, ![1, 128]⟩
abbrev S50000x128 : Shape := ⟨2, ![50000, 128]⟩
abbrev S5000x10 : Shape := ⟨2, ![5000, 10]⟩
abbrev S5000x128 : Shape := ⟨2, ![5000, 128]⟩
abbrev S650000x128 : Shape := ⟨2, ![650000, 128]⟩
abbrev S10x1024 : Shape := ⟨2, ![10, 1024]⟩
abbrev S128x1024 : Shape := ⟨2, ![128, 1024]⟩
abbrev S1x1024 : Shape := ⟨2, ![1, 1024]⟩
abbrev S1x1 : Shape := ⟨2, ![1, 1]⟩
abbrev S50000x1 : Shape := ⟨2, ![50000, 1]⟩
abbrev S5000x1 : Shape := ⟨2, ![5000, 1]⟩
abbrev S5000x1024 : Shape := ⟨2, ![5000, 1024]⟩

abbrev nBuf : Space → Nat
  | .hbm => 87
  | .vmem => 23
  | .smem => 0
  | _ => 0

abbrev bufTy : (tb : Table) → Fin (tcTables nBuf tb) → BufTy
  | .hbm, ⟨0, _⟩ => ⟨S50000x10, .f32⟩
  | .hbm, ⟨1, _⟩ => ⟨S10x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S138x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S2x600000, .i32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S50000, .i32⟩
  | .hbm, ⟨15, _⟩ => ⟨S650000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000x10, .f32⟩
  | .hbm, ⟨55, _⟩ => ⟨S650000x1, .f32⟩
  | .hbm, ⟨56, _⟩ => ⟨S650000x10, .f32⟩
  | .hbm, ⟨57, _⟩ => ⟨S650000x10, .f32⟩
  | .hbm, ⟨58, _⟩ => ⟨S_, .f32⟩
  | .hbm, ⟨59, _⟩ => ⟨S50000x10, .f32⟩
  | .hbm, ⟨60, _⟩ => ⟨S650000x1, .i32⟩
  | .hbm, ⟨61, _⟩ => ⟨S50000x10, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S650000, .i32⟩
  | .hbm, ⟨66, _⟩ => ⟨S650000, .i1⟩
  | .hbm, ⟨67, _⟩ => ⟨S_, .i32⟩
  | .hbm, ⟨68, _⟩ => ⟨S650000, .i32⟩
  | .hbm, ⟨69, _⟩ => ⟨S650000, .i32⟩
  | .hbm, ⟨70, _⟩ => ⟨S650000, .i32⟩
  | .hbm, ⟨71, _⟩ => ⟨S650000x1, .i32⟩
  | .hbm, ⟨72, _⟩ => ⟨S650000x128, .f32⟩
  | .hbm, ⟨73, _⟩ => ⟨S650000x1, .f32⟩
  | .hbm, ⟨74, _⟩ => ⟨S650000x128, .f32⟩
  | .hbm, ⟨75, _⟩ => ⟨S650000x128, .f32⟩
  | .hbm, ⟨76, _⟩ => ⟨S_, .f32⟩
  | .hbm, ⟨77, _⟩ => ⟨S50000x128, .f32⟩
  | .hbm, ⟨78, _⟩ => ⟨S650000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S10x1024, .f32⟩
  | .hbm, ⟨83, _⟩ => ⟨S128x1024, .f32⟩
  | .hbm, ⟨84, _⟩ => ⟨S1x1024, .f32⟩
  | .hbm, ⟨85, _⟩ => ⟨S1x1, .f32⟩
  | .hbm, ⟨86, _⟩ => ⟨S50000x1, .f32⟩
  | .local _ .vmem, ⟨0, _⟩ => ⟨S5000x10, .f32⟩
  | .local _ .vmem, ⟨1, _⟩ => ⟨S5000x10, .f32⟩
  | .local _ .vmem, ⟨2, _⟩ => ⟨S10x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x10, .f32⟩
  | .local _ .vmem, ⟨13, _⟩ => ⟨S5000x10, .f32⟩
  | .local _ .vmem, ⟨14, _⟩ => ⟨S5000x128, .f32⟩
  | .local _ .vmem, ⟨15, _⟩ => ⟨S5000x128, .f32⟩
  | .local _ .vmem, ⟨16, _⟩ => ⟨S10x1024, .f32⟩
  | .local _ .vmem, ⟨17, _⟩ => ⟨S128x1024, .f32⟩
  | .local _ .vmem, ⟨18, _⟩ => ⟨S1x1024, .f32⟩
  | .local _ .vmem, ⟨19, _⟩ => ⟨S1024x1, .f32⟩
  | .local _ .vmem, ⟨20, _⟩ => ⟨S1x1, .f32⟩
  | .local _ .vmem, ⟨21, _⟩ => ⟨S5000x1, .f32⟩
  | .local _ .vmem, ⟨22, _⟩ => ⟨S5000x1, .f32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x10_0_1 : S650000x1.BroadcastsInDim S650000x10 (![0, 1] : Fin 2 → Fin S650000x10.rank)
  bcast_S_S50000x10 : S_.BroadcastsInDim S50000x10 (![] : Fin 0 → Fin S50000x10.rank)
  shapeCasts_S128_S1x128 : S128.ShapeCasts S1x128
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S10x128_S10x128_0_0 : ∀ a, (![0, 0] : Fin 2 → Nat) a + S10x128.size a ≤ S10x128.size a
  h_S10x128 : 0 < S10x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  slices_S138x1024_S10x1024_0_0 : S138x1024.Slices ![0, 0] S10x1024
  slices_S138x1024_S128x1024_10_0 : S138x1024.Slices ![10, 0] S128x1024
  shapeCasts_S1024_S1x1024 : S1024.ShapeCasts S1x1024
  shapeCasts_S1_S1x1 : S1.ShapeCasts S1x1
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S5000x1024 : S1x1024.Broadcasts S5000x1024
  inb_S1024x1_S1024x1_0_0 : ∀ a, (![0, 0] : Fin 2 → Nat) a + S1024x1.size a ≤ S1024x1.size a
  h_S1024x1 : 0 < S1024x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x10_S650000x1_S650000x10_1_0_n_n_0_1_110_wf : GatherDims.WF S50000x10 S650000x1 S650000x10 [1] [0] [] [0] [] 1 ![1, 10]
  scatter_S50000x10_S650000x1_S650000x10_1_0_0_1_wf : ScatterDims.WF S50000x10 S650000x1 S650000x10 [1] [0] [0] 1
  dot_S5000x10_S10x128_S5000x128_1_0_0_1_n_n_wf : DotDims.WF S5000x10 S10x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  dot_S5000x10_S10x1024_S5000x1024_1_0_0_1_n_n_wf : DotDims.WF S5000x10 S10x1024 S5000x1024 [1] [0] [0] [1] [] []
  dot_S5000x128_S128x1024_S5000x1024_1_0_0_1_n_n_wf : DotDims.WF S5000x128 S128x1024 S5000x1024 [1] [0] [0] [1] [] []
  dot_S5000x1024_S1024x1_S5000x1_1_0_0_1_n_n_wf : DotDims.WF S5000x1024 S1024x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S50000x10.size a
  hwx0_0 : ∀ i : grid0.Coords, EltTy.bits .f32 = 32 ∨ (Rect.block (s := S50000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S50000x10.size a
  hwx2_0 : ∀ i : grid2.Coords, EltTy.bits .f32 = 32 ∨ (Rect.block (s := S50000x10) S5000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x1024.size a ≤ S10x1024.size a
  hwx2_2 : ∀ i : grid2.Coords, EltTy.bits .f32 = 32 ∨ (Rect.block (s := S10x1024) S10x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1024.size a ≤ S128x1024.size a
  hwx2_3 : ∀ i : grid2.Coords, EltTy.bits .f32 = 32 ∨ (Rect.block (s := S128x1024) S128x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S50000x1.size a
  hwx2_7 : ∀ i : grid2.Coords, EltTy.bits .f32 = 32 ∨ (Rect.block (s := S50000x1) S5000x1.size (cc2_transform_7 i) (hinb2_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x10_S650000x1_S650000x10_1_0_n_n_0_1_110 : GatherDims S50000x10 S650000x1 S650000x10 where
  offsetDims := [1]
  collapsedSliceDims := [0]
  operandBatchingDims := []
  startIndicesBatchingDims := []
  startIndexMap := [0]
  indexVectorDim := 1
  sliceSizes := ![1, 10]
  wf := gather_S50000x10_S650000x1_S650000x10_1_0_n_n_0_1_110_wf
def scatter_S50000x10_S650000x1_S650000x10_1_0_0_1 : ScatterDims S50000x10 S650000x1 S650000x10 where
  updateWindowDims := [1]
  insertedWindowDims := [0]
  scatterDimsToOperandDims := [0]
  indexVectorDim := 1
  wf := scatter_S50000x10_S650000x1_S650000x10_1_0_0_1_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x10_S10x1024_S5000x1024_1_0_0_1_n_n : DotDims S5000x10 S10x1024 S5000x1024 where
  lhsContracting := [1]
  rhsContracting := [0]
  lhsNonContracting := [0]
  rhsNonContracting := [1]
  lhsBatch := []
  rhsBatch := []
  wf := dot_S5000x10_S10x1024_S5000x1024_1_0_0_1_n_n_wf
def dot_S5000x128_S128x1024_S5000x1024_1_0_0_1_n_n : DotDims S5000x128 S128x1024 S5000x1024 where
  lhsContracting := [1]
  rhsContracting := [0]
  lhsNonContracting := [0]
  rhsNonContracting := [1]
  lhsBatch := []
  rhsBatch := []
  wf := dot_S5000x128_S128x1024_S5000x1024_1_0_0_1_n_n_wf
def dot_S5000x1024_S1024x1_S5000x1_1_0_0_1_n_n : DotDims S5000x1024 S1024x1 S5000x1 where
  lhsContracting := [1]
  rhsContracting := [0]
  lhsNonContracting := [0]
  rhsNonContracting := [1]
  lhsBatch := []
  rhsBatch := []
  wf := dot_S5000x1024_S1024x1_S5000x1_1_0_0_1_n_n_wf

abbrev win0_0 : Pipeline.Window sig grid0 :=
  Pipeline.Window.ofSpec (Memref.whole main_v41) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S1024x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S50000x128 : Shape := ⟨2, ![50000, 128]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x138 : Shape := ⟨2, ![50000, 138]⟩
abbrev S50000x1024 : Shape := ⟨2, ![50000, 1024]⟩
abbrev S1x1024 : Shape := ⟨2, ![1, 1024]⟩
abbrev S50000x1 : Shape := ⟨2, ![50000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x10, .f32⟩
  | 1 => ⟨S10x128, .f32⟩
  | 2 => ⟨S128, .f32⟩
  | 3 => ⟨S128x128, .f32⟩
  | 4 => ⟨S128, .f32⟩
  | 5 => ⟨S138x1024, .f32⟩
  | 6 => ⟨S1024, .f32⟩
  | 7 => ⟨S1024x1, .f32⟩
  | 8 => ⟨S1, .f32⟩
  | 9 => ⟨S2x600000, .i32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S50000, .f32⟩
  | 25 => ⟨S_, .i32⟩
  | 26 => ⟨S650000, .i32⟩
  | 27 => ⟨S650000, .i1⟩
  | 28 => ⟨S_, .i32⟩
  | 29 => ⟨S650000, .i32⟩
  | 30 => ⟨S650000, .i32⟩
  | 31 => ⟨S650000, .i32⟩
  | 32 => ⟨S650000x1, .i32⟩
  | 33 => ⟨S650000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000x128, .f32⟩
  | 53 => ⟨S650000x1, .f32⟩
  | 54 => ⟨S650000x128, .f32⟩
  | 55 => ⟨S650000x128, .f32⟩
  | 56 => ⟨S_, .f32⟩
  | 57 => ⟨S50000x128, .f32⟩
  | 58 => ⟨S650000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S50000, .i32⟩
  | 68 => ⟨S650000, .i32⟩
  | 69 => ⟨S650000, .i32⟩
  | 70 => ⟨S_, .f32⟩
  | 71 => ⟨S650000, .f32⟩
  | 72 => ⟨S_, .f32⟩
  | 73 => ⟨S50000, .f32⟩
  | 74 => ⟨S650000x1, .i32⟩
  | 75 => ⟨S50000, .f32⟩
  | 76 => ⟨S50000, .f32⟩
  | 77 => ⟨S_, .i32⟩
  | 78 => ⟨S650000, .i32⟩
  | 79 => ⟨S650000, .i1⟩
  | 80 => ⟨S_, .i32⟩
  | 81 => ⟨S650000, .i32⟩
  | 82 => ⟨S650000, .i32⟩
  | 83 => ⟨S650000, .i32⟩
  | 84 => ⟨S650000x1, .i32⟩
  | 85 => ⟨S650000, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .f32⟩
  | 95 => ⟨S650000, .f32⟩
  | 96 => ⟨S_, .i32⟩
  | 97 => ⟨S650000, .i32⟩
  | 98 => ⟨S650000, .i1⟩
  | 99 => ⟨S_, .i32⟩
  | 100 => ⟨S650000, .i32⟩
  | 101 => ⟨S650000, .i32⟩
  | 102 => ⟨S650000, .i32⟩
  | 103 => ⟨S650000x1, .i32⟩
  | 104 => ⟨S650000x128, .f32⟩
  | 105 => ⟨S650000x1, .f32⟩
  | 106 => ⟨S650000x128, .f32⟩
  | 107 => ⟨S650000x128, .f32⟩
  | 108 => ⟨S_, .f32⟩
  | 109 => ⟨S50000x128, .f32⟩
  | 110 => ⟨S650000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x138, .f32⟩
  | 119 => ⟨S50000x1024, .f32⟩
  | 120 => ⟨S1x1024, .f32⟩
  | 121 => ⟨S50000x1024, .f32⟩
  | 122 => ⟨S50000x1024, .f32⟩
  | 123 => ⟨S_, .f32⟩
  | 124 => ⟨S50000x1024, .f32⟩
  | 125 => ⟨S50000x1024, .f32⟩
  | 126 => ⟨S50000x1, .f32⟩
  | 127 => ⟨S1x1, .f32⟩
  | _ => ⟨S50000x10, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x1, .f32⟩
  | 4 => ⟨S_, .f32⟩
  | 5 => ⟨S50000x1, .f32⟩
  | 6 => ⟨S50000x1, .f32⟩
  | 7 => ⟨S_, .f32⟩
  | 8 => ⟨S50000x1, .f32⟩
  | 9 => ⟨S50000x1, .f32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_cst : Ref sig .tc := ⟨.hbm, 123, rfl⟩
abbrev main_call2_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_cst_17 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x10_S50000x128_S50000x138_d1 : Shape.Concatenates [S50000x10, S50000x128] S50000x138 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x10_S10x128_S50000x128_1_0_0_1_n_n_wf : DotDims.WF S50000x10 S10x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x138_S138x1024_S50000x1024_1_0_0_1_n_n_wf : DotDims.WF S50000x138 S138x1024 S50000x1024 [1] [0] [0] [1] [] []
  dot_S50000x1024_S1024x1_S50000x1_1_0_0_1_n_n_wf : DotDims.WF S50000x1024 S1024x1 S50000x1 [1] [0] [0] [1] [] []

variable [Facts₀]

def dot_S50000x10_S10x128_S50000x128_1_0_0_1_n_n : DotDims S50000x10 S10x128 S50000x128 where
  lhsContracting := [1]
  rhsContracting := [0]
  lhsNonContracting := [0]
  rhsNonContracting := [1]
  lhsBatch := []
  rhsBatch := []
  wf := dot_S50000x10_S10x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x138_S138x1024_S50000x1024_1_0_0_1_n_n : DotDims S50000x138 S138x1024 S50000x1024 where
  lhsContracting := [1]
  rhsContracting := [0]
  lhsNonContracting := [0]
  rhsNonContracting := [1]
  lhsBatch := []
  rhsBatch := []
  wf := dot_S50000x138_S138x1024_S50000x1024_1_0_0_1_n_n_wf
def dot_S50000x1024_S1024x1_S50000x1_1_0_0_1_n_n : DotDims S50000x1024 S1024x1 S50000x1 where
  lhsContracting := [1]
  rhsContracting := [0]
  lhsNonContracting := [0]
  rhsNonContracting := [1]
  lhsBatch := []
  rhsBatch := []
  wf := dot_S50000x1024_S1024x1_S50000x1_1_0_0_1_n_n_wf

class Facts : Prop extends Facts₀ where

variable [Facts]
-- ==== Proof.KRun.lean ====
/-
  The idealized kernel's run with its result named. The program is three launches among stretches of host
  operations; the generated frame follows the buffers' contents from boundary to boundary (`Gen.W0 … Gen.W6`) and
  reads the argument arrays back at the end. Read back in the same way, the result buffer ends at the last boundary's
  contents of it: `Gen.W6 m ρ c` at the result.
-/
import proofs.«180968_j47579647705688_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the
    last boundary's contents and the argument arrays as launched. -/
theorem run_named : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.KHost.lean ====
/-
  The kernel program's host operations, stretch by stretch, read from ANY buffer contents `W` at the stretch's entry.

  Before the first launch the host builds the edge bookkeeping with the very operations the reference uses — the
  sources and landings (the edge list's two rows, each followed by the node numbers), the in-degrees, the wrapped
  index columns — so those buffers hold the reference's stage functions of the edge list; the one difference is
  that the kernel takes the maximum of the in-degrees with one before the reciprocal square root (`kDinv`,
  `kNorm`). It then gathers, weights and scatter-adds the rows of the node features (`host0_v41`). Between the
  launches it aggregates the first hidden table in the same way (`host1_v56`) and lays the biases out as rows; before
  the last launch it cuts the read-out weights into their two row blocks.
-/
import proofs.«180968_j47579647705688_2_alg».proof.Proof.Gen.KernelIdeal.Frame
import proofs.«180968_j47579647705688_2_alg».proof.Proof.Gen.ReferenceIdeal.Read

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

/-- A buffer that no operation of a stretch writes keeps its contents: the stretch's operations are listed, each
    one's written buffer compared with the buffer asked for. -/
macro "host_keep" : tactic =>
  `(tactic| (refine StableHlo.after_of_forall_not_mem _ _ (List.forall_iff_forall_mem.mp ?_)
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The first stretch -/

/-- The kernel's reciprocal square roots of the in-degrees: the maximum with one comes first. -/
def kDinv (x9 : (⟨S2x600000, .i32⟩ : BufTy).Contents (Elt F)) : (⟨S50000, .f32⟩ : BufTy).Contents (Elt F) :=
  Host.rsqrt (maximumf (Cert.ReferenceIdeal.Read.val_main_v11 (F := F) x9)
    (broadcastInDim S50000 ![] bcast_S_S50000 (constant S_ .f32 0x3F800000#32)))

/-- The kernel's edge weights: the product of the two gathered reciprocal square roots. -/
def kNorm (x9 : (⟨S2x600000, .i32⟩ : BufTy).Contents (Elt F)) : (⟨S650000, .f32⟩ : BufTy).Contents (Elt F) :=
  mulf (Host.gather gather_S50000_S650000x1_S650000_n_0_n_n_0_1_1 (kDinv (F := F) x9) (Cert.ReferenceIdeal.Read.val_main_v18 (F := F) x9))
    (Host.gather gather_S50000_S650000x1_S650000_n_0_n_n_0_1_1 (kDinv (F := F) x9) (Cert.ReferenceIdeal.Read.val_main_v25 (F := F) x9))

variable (W : Valuation τ sig (Elt F))

/-- The sources. -/
theorem host0_v5 : StableHlo.after (hostOps0 (F := F)) W (Proc.devRef .tc main_v5)
    = Cert.ReferenceIdeal.Read.val_main_v6 (F := F) (W (Proc.devRef .tc main_arg9)) := by
  after_results_simp
  rfl

/-- The landings. -/
theorem host0_v6 : StableHlo.after (hostOps0 (F := F)) W (Proc.devRef .tc main_v6)
    = Cert.ReferenceIdeal.Read.val_main_v7 (F := F) (W (Proc.devRef .tc main_arg9)) := by
  after_results_simp
  rfl

/-- The edge weights. -/
theorem host0_v28 : StableHlo.after (hostOps0 (F := F)) W (Proc.devRef .tc main_v28)
    = kNorm (F := F) (W (Proc.devRef .tc main_arg9)) := by
  after_results_simp
  rfl

/-- The aggregated node features: the rows gathered at the sources, weighted, scatter-added at the landings. -/
theorem host0_v41 : StableHlo.after (hostOps0 (F := F)) W (Proc.devRef .tc main_v41)
    = Host.scatterAdd scatter_S50000x10_S650000x1_S650000x10_1_0_0_1
        (broadcastInDim S50000x10 ![] bcast_S_S50000x10 (constant S_ .f32 0x00000000#32))
        (Cert.ReferenceIdeal.Read.val_main_v39 (F := F) (W (Proc.devRef .tc main_arg9)))
        (mulf (Host.gather gather_S50000x10_S650000x1_S650000x10_1_0_n_n_0_1_110 (W (Proc.devRef .tc main_arg0))
                (Cert.ReferenceIdeal.Read.val_main_v33 (F := F) (W (Proc.devRef .tc main_arg9))))
          (broadcastInDim S650000x10 ![0, 1] bcast_S650000x1_S650000x10_0_1
            (broadcastInDim S650000x1 ![0] bcast_S650000_S650000x1_0 (kNorm (F := F) (W (Proc.devRef .tc main_arg9)))))) := by
  after_results_simp
  rfl

/-- The first bias as a row. -/
theorem host0_v42 : StableHlo.after (hostOps0 (F := F)) W (Proc.devRef .tc main_v42)
    = shapeCast _ (W (Proc.devRef .tc main_arg2)) shapeCasts_S128_S1x128 := by
  after_results_simp
  rfl

theorem host0_arg0 : StableHlo.after (hostOps0 (F := F)) W (Proc.devRef .tc main_arg0) = W (Proc.devRef .tc main_arg0) := by host_keep
theorem host0_arg1 : StableHlo.after (hostOps0 (F := F)) W (Proc.devRef .tc main_arg1) = W (Proc.devRef .tc main_arg1) := by host_keep
theorem host0_arg3 : StableHlo.after (hostOps0 (F := F)) W (Proc.devRef .tc main_arg3) = W (Proc.devRef .tc main_arg3) := by host_keep
theorem host0_arg4 : StableHlo.after (hostOps0 (F := F)) W (Proc.devRef .tc main_arg4) = W (Proc.devRef .tc main_arg4) := by host_keep
theorem host0_arg5 : StableHlo.after (hostOps0 (F := F)) W (Proc.devRef .tc main_arg5) = W (Proc.devRef .tc main_arg5) := by host_keep
theorem host0_arg6 : StableHlo.after (hostOps0 (F := F)) W (Proc.devRef .tc main_arg6) = W (Proc.devRef .tc main_arg6) := by host_keep
theorem host0_arg7 : StableHlo.after (hostOps0 (F := F)) W (Proc.devRef .tc main_arg7) = W (Proc.devRef .tc main_arg7) := by host_keep
theorem host0_arg8 : StableHlo.after (hostOps0 (F := F)) W (Proc.devRef .tc main_arg8) = W (Proc.devRef .tc main_arg8) := by host_keep

/-! ## The second stretch -/

/-- The aggregated first hidden table, when the stretch finds the sources and landings of an edge list `x9`. -/
theorem host1_v56 (x9 : (⟨S2x600000, .i32⟩ : BufTy).Contents (Elt F))
    (h5 : W (Proc.devRef .tc main_v5) = Cert.ReferenceIdeal.Read.val_main_v6 (F := F) x9)
    (h6 : W (Proc.devRef .tc main_v6) = Cert.ReferenceIdeal.Read.val_main_v7 (F := F) x9) :
    StableHlo.after (hostOps1 (F := F)) W (Proc.devRef .tc main_v56)
    = Host.scatterAdd scatter_S50000x128_S650000x1_S650000x128_1_0_0_1
        (broadcastInDim S50000x128 ![] bcast_S_S50000x128 (constant S_ .f32 0x00000000#32))
        (Cert.ReferenceIdeal.Read.val_main_v39 (F := F) x9)
        (mulf (Host.gather gather_S50000x128_S650000x1_S650000x128_1_0_n_n_0_1_1128 (W (Proc.devRef .tc main_v43))
                (Cert.ReferenceIdeal.Read.val_main_v33 (F := F) x9))
          (broadcastInDim S650000x128 ![0, 1] bcast_S650000x1_S650000x128_0_1
            (broadcastInDim S650000x1 ![0] bcast_S650000_S650000x1_0 (W (Proc.devRef .tc main_v28))))) := by
  after_results_simp
  rw [h5, h6]
  rfl

/-- The second bias as a row. -/
theorem host1_v57 : StableHlo.after (hostOps1 (F := F)) W (Proc.devRef .tc main_v57)
    = shapeCast _ (W (Proc.devRef .tc main_arg4)) shapeCasts_S128_S1x128 := by
  after_results_simp
  rfl

theorem host1_arg0 : StableHlo.after (hostOps1 (F := F)) W (Proc.devRef .tc main_arg0) = W (Proc.devRef .tc main_arg0) := by host_keep
theorem host1_arg3 : StableHlo.after (hostOps1 (F := F)) W (Proc.devRef .tc main_arg3) = W (Proc.devRef .tc main_arg3) := by host_keep
theorem host1_arg5 : StableHlo.after (hostOps1 (F := F)) W (Proc.devRef .tc main_arg5) = W (Proc.devRef .tc main_arg5) := by host_keep
theorem host1_arg6 : StableHlo.after (hostOps1 (F := F)) W (Proc.devRef .tc main_arg6) = W (Proc.devRef .tc main_arg6) := by host_keep
theorem host1_arg7 : StableHlo.after (hostOps1 (F := F)) W (Proc.devRef .tc main_arg7) = W (Proc.devRef .tc main_arg7) := by host_keep
theorem host1_arg8 : StableHlo.after (hostOps1 (F := F)) W (Proc.devRef .tc main_arg8) = W (Proc.devRef .tc main_arg8) := by host_keep

/-! ## The third stretch -/

/-- Rows `0 … 9` of the read-out weights. -/
theorem host2_v59 : StableHlo.after (hostOps2 (F := F)) W (Proc.devRef .tc main_v59)
    = extractStridedSlice S10x1024 ![0, 0] (W (Proc.devRef .tc main_arg5)) slices_S138x1024_S10x1024_0_0 := by
  after_results_simp

/-- Rows `10 … 137` of the read-out weights. -/
theorem host2_v60 : StableHlo.after (hostOps2 (F := F)) W (Proc.devRef .tc main_v60)
    = extractStridedSlice S128x1024 ![10, 0] (W (Proc.devRef .tc main_arg5)) slices_S138x1024_S128x1024_10_0 := by
  after_results_simp

/-- The read-out's first bias as a row. -/
theorem host2_v61 : StableHlo.after (hostOps2 (F := F)) W (Proc.devRef .tc main_v61)
    = shapeCast _ (W (Proc.devRef .tc main_arg6)) shapeCasts_S1024_S1x1024 := by
  after_results_simp
  rfl

/-- The read-out's second bias as a one-by-one table. -/
theorem host2_v62 : StableHlo.after (hostOps2 (F := F)) W (Proc.devRef .tc main_v62)
    = shapeCast _ (W (Proc.devRef .tc main_arg8)) shapeCasts_S1_S1x1 := by
  after_results_simp
  rfl

theorem host2_arg0 : StableHlo.after (hostOps2 (F := F)) W (Proc.devRef .tc main_arg0) = W (Proc.devRef .tc main_arg0) := by host_keep
theorem host2_arg7 : StableHlo.after (hostOps2 (F := F)) W (Proc.devRef .tc main_arg7) = W (Proc.devRef .tc main_arg7) := by host_keep
theorem host2_v58 : StableHlo.after (hostOps2 (F := F)) W (Proc.devRef .tc main_v58) = W (Proc.devRef .tc main_v58) := by host_keep

end Cert.KernelIdeal.KHost

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.Spec.lean ====
/-
  The network both programs compute, written once, index by index, on the extended reals.

  A graph of 50000 nodes carries 650000 directed edges (the 600000 given ones followed by one loop per node). An edge
  `e` has a landing row (the word `dc (e, 0)` read as a signed integer: the edge contributes to node `i` exactly when that
  integer is `i`, and to no node when it is out of range), a source row (the word `sc (e, 0)` read signed and clamped
  into the node range) and a weight `nr e`. `agg` is the weighted neighbourhood sum of the rows of a node table, `dense`
  an affine map followed by the rectifier, `readout` the two-layer perceptron on the concatenated features with
  the logistic function at the end.
-/
import Idealize.ShloMosaic.PureOps.Ideal
import Idealize.ShloMosaic.Lib.ValueIdx
import proofs.«180968_j47579647705688_2_alg».proof.Proof.LibScatterRows

noncomputable section

open scoped BigOperators

namespace Cert.Spec

open Idealize.ShloMosaic Idealize.ShloMosaic.ValueIdx Cert.Lib.ScatterRows

theorem nodes_pos : 0 < 50000 := by norm_num

/-- Entry `(i, q)` of the weighted neighbourhood sum of the rows of `M`: the sum over the edges landing on node `i` of
    the edge's source row of `M`, at column `q`, times the edge's weight. -/
def agg {D : Nat} (dc sc : IVec ⟨2, ![650000, 1]⟩ 32) (nr : (⟨1, ![650000]⟩ : Shape).Idx → EReal)
    (M : (⟨2, ![50000, D]⟩ : Shape).Idx → EReal) (i : Fin 50000) (q : Fin D) : EReal :=
  ∑ e : Fin 650000, if (dc (ix2 e 0)).toInt = (i.val : ℤ)
    then M (ix2 (clampRow 50000 nodes_pos (sc (ix2 e 0)).toInt) q) * nr (ix1 e) else 0

/-- Entry `(i, q)` of `max (A · W + b, 0)`. -/
def dense {K D : Nat} (A : (⟨2, ![50000, K]⟩ : Shape).Idx → EReal) (W : (⟨2, ![K, D]⟩ : Shape).Idx → EReal)
    (b : Fin D → EReal) (i : Fin 50000) (q : Fin D) : EReal :=
  max ((∑ t : Fin K, A (ix2 i t) * W (ix2 t q)) + b q) 0

/-- Entry `i` of the read-out: the rows `0 … 9` of `W` multiply the node's own features `x`, the rows `10 … 137` its
    hidden features `h`; then the bias, the rectifier, the product with the column `w2`, its bias, the logistic
    function. -/
def readout (x : (⟨2, ![50000, 10]⟩ : Shape).Idx → EReal) (h : (⟨2, ![50000, 128]⟩ : Shape).Idx → EReal)
    (W : (⟨2, ![138, 1024]⟩ : Shape).Idx → EReal) (b : Fin 1024 → EReal) (w2 : Fin 1024 → EReal) (b2 : EReal)
    (i : Fin 50000) : EReal :=
  Ideal.logistic ((∑ j : Fin 1024,
      max (((∑ k : Fin 10, x (ix2 i k) * W (ix2 (⟨k.val, by omega⟩ : Fin 138) j))
            + (∑ k : Fin 128, h (ix2 i k) * W (ix2 (⟨10 + k.val, by omega⟩ : Fin 138) j))) + b j) 0 * w2 j) + b2)

/-- The same read-out with the weight matrix given as its two row blocks `Wa` (rows `0 … 9`) and `Wb` (rows
    `10 … 137`), and the biases as one-row tables. -/
def readoutSplit (x : (⟨2, ![50000, 10]⟩ : Shape).Idx → EReal) (h : (⟨2, ![50000, 128]⟩ : Shape).Idx → EReal)
    (Wa : (⟨2, ![10, 1024]⟩ : Shape).Idx → EReal) (Wb : (⟨2, ![128, 1024]⟩ : Shape).Idx → EReal)
    (b : (⟨2, ![1, 1024]⟩ : Shape).Idx → EReal) (w2 : (⟨2, ![1024, 1]⟩ : Shape).Idx → EReal)
    (b2 : (⟨2, ![1, 1]⟩ : Shape).Idx → EReal) (i : Fin 50000) : EReal :=
  Ideal.logistic ((∑ j : Fin 1024,
      max (((∑ k : Fin 10, x (ix2 i k) * Wa (ix2 k j)) + (∑ k : Fin 128, h (ix2 i k) * Wb (ix2 k j)))
            + b (ix2 0 j)) 0 * w2 (ix2 j 0)) + b2 (ix2 0 0))

end Cert.Spec

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Tile0.lean ====
/-
  The first dense layer, from tiles to the whole array.

  The launch walks ten points; point `t` loads rows `5000 t … 5000 t + 4999` of the node table, the whole weight table
  and the bias row, and writes back rows `5000 t …` of the output. Per point the tile arithmetic is, entry by entry, the
  row of the node tile against the column of the weights, plus the bias at that column, rectified (`pay0_apply`); a
  tile's row `p` is the table's row `5000 t + p` (`blk0_*_read`), so what point `t` writes back is block `t` of ONE
  function `layer0` of the three whole arrays (`tile0_eq`, `flushed0_eq`); the ten blocks cover the 50000 rows (row `r`
  lies in block `r / 5000`: `cover0`), so the array ends holding `layer0` (`final0`), which at `(i, q)` is the dense
  layer of the specification.
-/
import proofs.«180968_j47579647705688_2_alg».proof.Proof.Gen.KernelIdeal.Frame
import proofs.«180968_j47579647705688_2_alg».proof.Proof.Spec
import proofs.«180968_j47579647705688_2_alg».proof.Proof.LibTileMatmul
import Idealize.ShloMosaic.Lib.ValueLayout

noncomputable section

open scoped BigOperators

namespace Cert.KernelIdeal.Tiles

open Cert.KernelIdeal Idealize.ShloMosaic Idealize.ShloMosaic.TcCoe Idealize.ShloMosaic.ValueIdx Idealize.SL.Sem
open Idealize.ShloMosaic.Pipeline (Dat Cfg Window)

/-- The first layer's tile arithmetic at row `p`, column `q` of the tile: the row of the node tile against the
    column of the weights, plus the bias at that column, rectified. -/
theorem pay0_apply (x0 : Vec Ideal S5000x10 .f32) (x1 : Vec Ideal S10x128 .f32) (x2 : Vec Ideal S1x128 .f32)
    (p : Fin 5000) (q : Fin 128) :
    (Gen.k0_pay1 x0 x1 x2 : S5000x128.Idx → EReal) (ix2 p q)
      = max ((∑ t : Fin 10, (x0 (ix2 p t) : EReal) * x1 (ix2 t q)) + x2 (ix2 0 q)) 0 := by
  unfold Gen.k0_pay1
  rw [maximumf_apply, addf_apply, broadcast_apply, shapeCast_self, shapeCast_self, broadcastTo_1b_ab_apply]
  show max (_ + _) (FloatOps.ofBits (F := Idealize.ShloMosaic.Ideal) .f32 0x00000000#32) = _
  rw [Idealize.ShloMosaic.Ideal.ofBits_def, Idealize.ShloMosaic.Ideal.ofBits_zero_f32]
  exact congrArg (fun z => max (z + x2 (ix2 0 q)) 0) (TileMatmul.matmul_zero_apply _ none x0 x1 p q)

/-- The first launch's index maps, point by point: the node tile and the output tile are the point's own row block,
    the weights and the bias their one block. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A node tile read at `(p, k)` is the node table at row `5000 t + p`. -/
theorem blk0_0_read (T : S50000x10.Idx → EReal) (t : Fin cfg0.N) (p : Fin 5000) (k : Fin 10) (r : Fin 50000)
    (hr : r.val = t.val * 5000 + p.val) :
    (((cfg0.win 0).blk t).view.read (Elt Ideal) T : S5000x10.Idx → EReal) (ix2 p k) = T (ix2 r k) := by
  rw [View.read_apply]
  refine congrArg T ?_
  obtain ⟨e0, e1, -⟩ := index0 t
  funext a; apply Fin.ext
  match a with
  | ⟨0, _⟩ => show win0_0.index t (0 : Fin 2) * 5000 + 1 * p.val = r.val; rw [e0, hr]; omega
  | ⟨1, _⟩ => show win0_0.index t (1 : Fin 2) * 10 + 1 * k.val = k.val; rw [e1]; omega

/-- The weights' one block read at `(k, q)` is the weight table there. -/
theorem blk0_1_read (T : S10x128.Idx → EReal) (t : Fin cfg0.N) (k : Fin 10) (q : Fin 128) :
    (((cfg0.win 1).blk t).view.read (Elt Ideal) T : S10x128.Idx → EReal) (ix2 k q) = T (ix2 k q) := by
  rw [View.read_apply]
  refine congrArg T ?_
  obtain ⟨-, -, e0, e1, -⟩ := index0 t
  funext a; apply Fin.ext
  match a with
  | ⟨0, _⟩ => show win0_1.index t (0 : Fin 2) * 10 + 1 * k.val = k.val; rw [e0]; omega
  | ⟨1, _⟩ => show win0_1.index t (1 : Fin 2) * 128 + 1 * q.val = q.val; rw [e1]; omega

/-- The bias row's one block read at `(0, q)` is the bias table there. -/
theorem blk0_2_read (T : S1x128.Idx → EReal) (t : Fin cfg0.N) (q : Fin 128) :
    (((cfg0.win 2).blk t).view.read (Elt Ideal) T : S1x128.Idx → EReal) (ix2 0 q) = T (ix2 0 q) := by
  rw [View.read_apply]
  refine congrArg T ?_
  obtain ⟨-, -, -, -, e0, e1, -⟩ := index0 t
  funext a; apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- An output tile read at `(p, q)` is the output table at row `5000 t + p`. -/
theorem blk0_3_read (T : S50000x128.Idx → EReal) (t : Fin cfg0.N) (p : Fin 5000) (q : Fin 128) (r : Fin 50000)
    (hr : r.val = t.val * 5000 + p.val) :
    (((cfg0.win 3).blk t).view.read (Elt Ideal) T : S5000x128.Idx → EReal) (ix2 p q) = T (ix2 r q) := by
  rw [View.read_apply]
  refine congrArg T ?_
  obtain ⟨-, -, -, -, -, -, e0, e1⟩ := index0 t
  funext a; apply Fin.ext
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- The whole-tile rectangle's offsets are zero on both axes. -/
theorem offs0_zero : (![0, 0] : Fin 2 → Nat) = fun _ => 0 := funext fun a => by fin_cases a <;> rfl

/-- The first dense layer as ONE function of the three whole arrays: entry `i` is `max (A · W + b, 0)` at `i`'s row and
    column. -/
def layer0 (A : S50000x10.Idx → EReal) (W : S10x128.Idx → EReal) (b : S1x128.Idx → EReal) : S50000x128.Idx → EReal :=
  fun i => Cert.Spec.dense A W (fun q' => b (ix2 0 q')) (i 0) (i 1)

/-- Ten points of 5000 rows stay inside the 50000 rows. -/
theorem row0_lt (t : Fin cfg0.N) (p : Fin 5000) : t.val * 5000 + p.val < 50000 := by
  have := t.isLt; have hN : cfg0.N = 10 := Gen.N_0; have := p.isLt; omega

/-- What a point leaves in the output tile, from tiles that ARE the rows `5000 t …` of a node table `A`, a weight table
    `W` and a bias row `b`, is the point's block of `layer0 A W b`. -/
theorem tile0_eq (x0 : Vec Ideal S5000x10 .f32) (x1 : Vec Ideal S10x128 .f32) (x2 : Vec Ideal S1x128 .f32)
    (A : S50000x10.Idx → EReal) (W : S10x128.Idx → EReal) (b : S1x128.Idx → EReal) (t : Fin cfg0.N)
    (h0 : ∀ (p : Fin 5000) (k : Fin 10), x0 (ix2 p k) = A (ix2 ⟨t.val * 5000 + p.val, row0_lt t p⟩ k))
    (h1 : ∀ (k : Fin 10) (q : Fin 128), x1 (ix2 k q) = W (ix2 k q))
    (h2 : ∀ q : Fin 128, x2 (ix2 0 q) = b (ix2 0 q)) :
    ((cfg0.win 3).cut (grid0.coords t) (Gen.out0_3 x0 x1 x2) : S5000x128.Idx → EReal)
      = ((cfg0.win 3).blk t).view.read (Elt Ideal) (layer0 A W b) := by
  unfold Gen.out0_3
  rw [View.canon_unit_zero offs0_zero]
  simp only [View.ld_unit_zero (S := S5000x10) offs0_zero, View.ld_unit_zero (S := S10x128) offs0_zero, View.ld_unit_zero (S := S1x128) offs0_zero]
  funext j
  obtain ⟨p, q, rfl⟩ : ∃ (p : Fin 5000) (q : Fin 128), j = ix2 p q := ⟨j 0, j 1, eq_ix2 j⟩
  rw [blk0_3_read (layer0 A W b) t p q ⟨t.val * 5000 + p.val, row0_lt t p⟩ rfl]
  refine (pay0_apply x0 x1 x2 p q).trans ?_
  unfold layer0 Cert.Spec.dense
  rw [h2 q]
  exact congrArg (fun z => max (z + b (ix2 0 q)) 0) (Finset.sum_congr rfl fun k _ => by rw [h0 p k, h1 k q])

/-- WHAT POINT `t` WRITES BACK is block `t` of `layer0` of the three arrays as the launch finds them. -/
theorem flushed0_eq (V : (c : Dev nD) → (b : Ref sig .tc) → Buf (Elt Ideal) ((c : Thread nD τ).loc b)) (c : Dev nD) (t : Fin cfg0.N) :
    (Gen.dat0 V c).flushed 3 t
      = ((cfg0.win 3).blk t).view.read (Elt Ideal)
          (layer0 (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  exact tile0_eq _ _ _ _ _ _ t
    (fun p k => blk0_0_read _ t p k _ rfl) (fun k q => blk0_1_read _ t k q) (fun q => blk0_2_read _ t q)

/-- An index of the output array is in point `t`'s block iff each coordinate is in the block's range on its axis. -/
theorem mem_blk0 (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v43).slice (win0_3.rect t)).set ↔ _
  rw [View.set_slice_whole, Rect.mem_set_unit]
  exact Iff.rfl

/-- Every index of the output array is in some point's block: row `r` is in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := Gen.N_0
  refine ⟨⟨(i 0).val / 5000, by rw [hN]; omega⟩, Gen.flush0_3 _, ?_⟩
  rw [mem_blk0]
  obtain ⟨-, -, -, -, -, -, e0, e1⟩ := index0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- THE OUTPUT ARRAY after the ten points is `layer0` of the three input arrays. -/
theorem final0 (V : (c : Dev nD) → (b : Ref sig .tc) → Buf (Elt Ideal) ((c : Thread nD τ).loc b)) (c : Dev nD) :
    (Gen.dat0 V c).arrAt 3 cfg0.N
      = layer0 (V c (Pipeline.arrRef spec0 0)) (V c (Pipeline.arrRef spec0 1)) (V c (Pipeline.arrRef spec0 2)) :=
  (Gen.dat0 V c).arrAt_eq_of_cover 3 _ (fun t _ => flushed0_eq V c t) cover0

/-- The first dense layer, whole: after the ten grid points of the first launch, entry `(i, q)` of its output array is
    `max (A · W + b, 0)` at `(i, q)`, for `A`, `W`, `b` the launch's three input arrays as it found them. -/
theorem region0_final (V : (c : Dev nD) → (b : Ref sig .tc) → Buf (Elt Ideal) ((c : Thread nD τ).loc b)) (c : Dev nD)
    (i : Fin 50000) (q : Fin 128) :
    ((Gen.dat0 V c).arrAt 3 cfg0.N : S50000x128.Idx → EReal) (ix2 i q)
      = Cert.Spec.dense (V c (Pipeline.arrRef spec0 0) : S50000x10.Idx → EReal)
          (V c (Pipeline.arrRef spec0 1) : S10x128.Idx → EReal)
          (fun q' => (V c (Pipeline.arrRef spec0 2) : S1x128.Idx → EReal) (ix2 0 q')) i q := by
  rw [final0 V c]
  rfl

end Cert.KernelIdeal.Tiles

end
-- ==== Proof.Tile1.lean ====
/-
  The second dense layer, from tiles to the whole array.

  The launch walks ten points; point `t` loads rows `5000 t … 5000 t + 4999` of the feature table, the whole weight
  table and the bias row, and writes back rows `5000 t …` of the output. Per point the tile arithmetic is, entry by
  entry, the row of the feature tile against the column of the weights (a sum of 128 products), plus the bias at that
  column, rectified (`pay1_apply`); a tile's row `p` is the table's row `5000 t + p` (`blk1_*_read`), so what point `t`
  writes back is block `t` of ONE function `layer1` of the three whole arrays (`tile1_eq`, `flushed1_eq`); the ten
  blocks cover the 50000 rows (row `r` lies in block `r / 5000`: `cover1`), so the array ends holding `layer1`
  (`final1`), which at `(i, q)` is the dense layer of the specification.
-/
import proofs.«180968_j47579647705688_2_alg».proof.Proof.Gen.KernelIdeal.Frame
import proofs.«180968_j47579647705688_2_alg».proof.Proof.Spec
import proofs.«180968_j47579647705688_2_alg».proof.Proof.LibTileMatmul
import Idealize.ShloMosaic.Lib.ValueLayout

noncomputable section

open scoped BigOperators

namespace Cert.KernelIdeal.Tiles

open Cert.KernelIdeal Idealize.ShloMosaic Idealize.ShloMosaic.TcCoe Idealize.ShloMosaic.ValueIdx Idealize.SL.Sem
open Idealize.ShloMosaic.Pipeline (Dat Cfg Window)

/-- The second layer's tile arithmetic at row `p`, column `q` of the tile: the row of the feature tile against the
    column of the weights, plus the bias at that column, rectified. -/
theorem pay1_apply (x0 : Vec Ideal S5000x128 .f32) (x1 : Vec Ideal S128x128 .f32) (x2 : Vec Ideal S1x128 .f32)
    (p : Fin 5000) (q : Fin 128) :
    (Gen.k1_pay1 x0 x1 x2 : S5000x128.Idx → EReal) (ix2 p q)
      = max ((∑ t : Fin 128, (x0 (ix2 p t) : EReal) * x1 (ix2 t q)) + x2 (ix2 0 q)) 0 := by
  unfold Gen.k1_pay1
  rw [maximumf_apply, addf_apply, broadcast_apply, shapeCast_self, shapeCast_self, broadcastTo_1b_ab_apply]
  show max (_ + _) (FloatOps.ofBits (F := Idealize.ShloMosaic.Ideal) .f32 0x00000000#32) = _
  rw [Idealize.ShloMosaic.Ideal.ofBits_def, Idealize.ShloMosaic.Ideal.ofBits_zero_f32]
  exact congrArg (fun z => max (z + x2 (ix2 0 q)) 0) (TileMatmul.matmul_zero_apply _ none x0 x1 p q)

/-- The second launch's index maps, point by point: the feature tile and the output tile are the point's own row
    block, the weights and the bias their one block. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A feature tile read at `(p, k)` is the feature table at row `5000 t + p`. -/
theorem blk1_0_read (T : S50000x128.Idx → EReal) (t : Fin cfg1.N) (p : Fin 5000) (k : Fin 128) (r : Fin 50000)
    (hr : r.val = t.val * 5000 + p.val) :
    (((cfg1.win 0).blk t).view.read (Elt Ideal) T : S5000x128.Idx → EReal) (ix2 p k) = T (ix2 r k) := by
  rw [View.read_apply]
  refine congrArg T ?_
  obtain ⟨e0, e1, -⟩ := index1 t
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weights' one block read at `(k, q)` is the weight table there. -/
theorem blk1_1_read (T : S128x128.Idx → EReal) (t : Fin cfg1.N) (k : Fin 128) (q : Fin 128) :
    (((cfg1.win 1).blk t).view.read (Elt Ideal) T : S128x128.Idx → EReal) (ix2 k q) = T (ix2 k q) := by
  rw [View.read_apply]
  refine congrArg T ?_
  obtain ⟨-, -, e0, e1, -⟩ := index1 t
  funext a; apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias row's one block read at `(0, q)` is the bias table there. -/
theorem blk1_2_read (T : S1x128.Idx → EReal) (t : Fin cfg1.N) (q : Fin 128) :
    (((cfg1.win 2).blk t).view.read (Elt Ideal) T : S1x128.Idx → EReal) (ix2 0 q) = T (ix2 0 q) := by
  rw [View.read_apply]
  refine congrArg T ?_
  obtain ⟨-, -, -, -, e0, e1, -⟩ := index1 t
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- An output tile read at `(p, q)` is the output table at row `5000 t + p`. -/
theorem blk1_3_read (T : S50000x128.Idx → EReal) (t : Fin cfg1.N) (p : Fin 5000) (q : Fin 128) (r : Fin 50000)
    (hr : r.val = t.val * 5000 + p.val) :
    (((cfg1.win 3).blk t).view.read (Elt Ideal) T : S5000x128.Idx → EReal) (ix2 p q) = T (ix2 r q) := by
  rw [View.read_apply]
  refine congrArg T ?_
  obtain ⟨-, -, -, -, -, -, e0, e1⟩ := index1 t
  funext a; apply Fin.ext
  match a with
  | ⟨0, _⟩ => show win1_3.index t (0 : Fin 2) * 5000 + 1 * p.val = r.val; rw [e0, hr]; omega
  | ⟨1, _⟩ => show win1_3.index t (1 : Fin 2) * 128 + 1 * q.val = q.val; rw [e1]; omega

/-- The whole-tile rectangle's offsets are zero on both axes. -/
theorem offs1_zero : (![0, 0] : Fin 2 → Nat) = fun _ => 0 := funext fun a => by fin_cases a <;> rfl

/-- The second dense layer as ONE function of the three whole arrays: entry `i` is `max (A · W + b, 0)` at `i`'s row
    and column. -/
def layer1 (A : S50000x128.Idx → EReal) (W : S128x128.Idx → EReal) (b : S1x128.Idx → EReal) : S50000x128.Idx → EReal :=
  fun i => Cert.Spec.dense A W (fun q' => b (ix2 0 q')) (i 0) (i 1)

/-- Ten points of 5000 rows stay inside the 50000 rows. -/
theorem row1_lt (t : Fin cfg1.N) (p : Fin 5000) : t.val * 5000 + p.val < 50000 := by
  have := t.isLt; have hN : cfg1.N = 10 := Gen.N_1; have := p.isLt; omega

/-- What a point leaves in the output tile, from tiles that ARE the rows `5000 t …` of a feature table `A`, a weight
    table `W` and a bias row `b`, is the point's block of `layer1 A W b`. -/
theorem tile1_eq (x0 : Vec Ideal S5000x128 .f32) (x1 : Vec Ideal S128x128 .f32) (x2 : Vec Ideal S1x128 .f32)
    (A : S50000x128.Idx → EReal) (W : S128x128.Idx → EReal) (b : S1x128.Idx → EReal) (t : Fin cfg1.N)
    (h0 : ∀ (p : Fin 5000) (k : Fin 128), x0 (ix2 p k) = A (ix2 ⟨t.val * 5000 + p.val, row1_lt t p⟩ k))
    (h1 : ∀ (k : Fin 128) (q : Fin 128), x1 (ix2 k q) = W (ix2 k q))
    (h2 : ∀ q : Fin 128, x2 (ix2 0 q) = b (ix2 0 q)) :
    ((cfg1.win 3).cut (grid1.coords t) (Gen.out1_3 x0 x1 x2) : S5000x128.Idx → EReal)
      = ((cfg1.win 3).blk t).view.read (Elt Ideal) (layer1 A W b) := by
  unfold Gen.out1_3
  rw [View.canon_unit_zero offs1_zero]
  simp only [View.ld_unit_zero (S := S5000x128) offs1_zero, View.ld_unit_zero (S := S128x128) offs1_zero, View.ld_unit_zero (S := S1x128) offs1_zero]
  funext j
  obtain ⟨p, q, rfl⟩ : ∃ (p : Fin 5000) (q : Fin 128), j = ix2 p q := ⟨j 0, j 1, eq_ix2 j⟩
  rw [blk1_3_read (layer1 A W b) t p q ⟨t.val * 5000 + p.val, row1_lt t p⟩ rfl]
  refine (pay1_apply x0 x1 x2 p q).trans ?_
  unfold layer1 Cert.Spec.dense
  rw [h2 q]
  exact congrArg (fun z => max (z + b (ix2 0 q)) 0) (Finset.sum_congr rfl fun k _ => by rw [h0 p k, h1 k q])

/-- WHAT POINT `t` WRITES BACK is block `t` of `layer1` of the three arrays as the launch finds them. -/
theorem flushed1_eq (V : (c : Dev nD) → (b : Ref sig .tc) → Buf (Elt Ideal) ((c : Thread nD τ).loc b)) (c : Dev nD) (t : Fin cfg1.N) :
    (Gen.dat1 V c).flushed 3 t
      = ((cfg1.win 3).blk t).view.read (Elt Ideal)
          (layer1 (V c (Pipeline.arrRef spec1 0)) (V c (Pipeline.arrRef spec1 1)) (V c (Pipeline.arrRef spec1 2))) := by
  show (cfg1.win 3).cut (grid1.coords t) ((Gen.dat1 V c).after 3 t) = _
  rw [Gen.after1_3]
  exact tile1_eq _ _ _ _ _ _ t
    (fun p k => blk1_0_read _ t p k _ rfl) (fun k q => blk1_1_read _ t k q) (fun q => blk1_2_read _ t q)

/-- An index of the output array is in point `t`'s block iff each coordinate is in the block's range on its axis. -/
theorem mem_blk1 (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v58).slice (win1_3.rect t)).set ↔ _
  rw [View.set_slice_whole, Rect.mem_set_unit]
  exact Iff.rfl

/-- Every index of the output array is in some point's block: row `r` is in the block of point `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := Gen.N_1
  refine ⟨⟨(i 0).val / 5000, by rw [hN]; omega⟩, Gen.flush1_3 _, ?_⟩
  rw [mem_blk1]
  obtain ⟨-, -, -, -, -, -, e0, e1⟩ := index1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e1]; omega

/-- THE OUTPUT ARRAY after the ten points is `layer1` of the three input arrays. -/
theorem final1 (V : (c : Dev nD) → (b : Ref sig .tc) → Buf (Elt Ideal) ((c : Thread nD τ).loc b)) (c : Dev nD) :
    (Gen.dat1 V c).arrAt 3 cfg1.N
      = layer1 (V c (Pipeline.arrRef spec1 0)) (V c (Pipeline.arrRef spec1 1)) (V c (Pipeline.arrRef spec1 2)) :=
  (Gen.dat1 V c).arrAt_eq_of_cover 3 _ (fun t _ => flushed1_eq V c t) cover1

/-- The second dense layer, whole: after the ten grid points of the second launch, entry `(i, q)` of its output array is
    `max (A · W + b, 0)` at `(i, q)`, for `A`, `W`, `b` the launch's three input arrays as it found them. -/
theorem region1_final (V : (c : Dev nD) → (b : Ref sig .tc) → Buf (Elt Ideal) ((c : Thread nD τ).loc b)) (c : Dev nD)
    (i : Fin 50000) (q : Fin 128) :
    ((Gen.dat1 V c).arrAt 3 cfg1.N : S50000x128.Idx → EReal) (ix2 i q)
      = Cert.Spec.dense (V c (Pipeline.arrRef spec1 0) : S50000x128.Idx → EReal)
          (V c (Pipeline.arrRef spec1 1) : S128x128.Idx → EReal)
          (fun q' => (V c (Pipeline.arrRef spec1 2) : S1x128.Idx → EReal) (ix2 0 q')) i q := by
  rw [final1 V c]
  rfl

end Cert.KernelIdeal.Tiles

end
-- ==== Proof.Tile2.lean ====
/-
  The read-out launch as a whole array.

  The third launch walks ten grid points. At point `t` it holds rows `5000 t … 5000 t + 4999` of the node features
  `X` and of the hidden features `H`, and the whole of the two row blocks `Wa`, `Wb` of the first weight matrix, its
  bias row `b`, the second weight column `w2` and its bias `b2`; it leaves, in rows `5000 t … 5000 t + 4999` of the
  output column, the logistic function of `max (X · Wa + H · Wb + b, 0) · w2 + b2`.

  First the arithmetic of one tile, read at a row: three plain matrix products into zero accumulators are finite sums,
  the two bias broadcasts read their one row, the rectifier is `max · 0`. Then the geometry: row `p` of the tile at
  point `t` is row `5000 t + p` of the array, the weight windows are the whole arrays, so what point `t` writes back
  is block `t` of ONE function of the seven input arrays; row `r` of the output lies in the block of point
  `r / 5000`, so the ten blocks cover the column and the array ends holding that function.
-/
import proofs.«180968_j47579647705688_2_alg».proof.Proof.Gen.KernelIdeal.Frame
import proofs.«180968_j47579647705688_2_alg».proof.Proof.Spec
import proofs.«180968_j47579647705688_2_alg».proof.Proof.LibTileMatmul
import Idealize.ShloMosaic.Lib.ValueLayout
import Idealize.ShloMosaic.Lib.Pipeline.Value

noncomputable section

open scoped BigOperators

namespace Cert.KernelIdeal.Tiles

open Cert.KernelIdeal Idealize.ShloMosaic Idealize.ShloMosaic.TcCoe Idealize.ShloMosaic.ValueIdx Idealize.SL.Sem
open Idealize.ShloMosaic.Pipeline (Dat Cfg Window)
open Idealize.ShloMosaic.TileMatmul

/-! ## One tile's arithmetic, read at a row -/

/-- The logistic function applied entrywise, at an index. -/
theorem logistic2_apply {s : Shape} {φ : FTy} (a : FVec Ideal s φ) (i : s.Idx) :
    logistic a i = Ideal.logistic (a i) := rfl

/-- Row `p` of what one grid point computes from its tiles: the three products are sums over the contracted
    coordinate, each bias is its one row, the rectifier is `max · 0`. -/
theorem readout2_tile_apply (x : Vec Ideal S5000x10 .f32) (wa : Vec Ideal S10x1024 .f32) (h : Vec Ideal S5000x128 .f32)
    (wb : Vec Ideal S128x1024 .f32) (b : Vec Ideal S1x1024 .f32) (w2 : Vec Ideal S1024x1 .f32) (b2 : Vec Ideal S1x1 .f32)
    (p : Fin 5000) :
    (Gen.k2_pay1 (F := Ideal) x wa h wb b w2 b2 (ix2 p 0) : EReal)
      = Ideal.logistic ((∑ j : Fin 1024,
          max (((∑ k : Fin 10, x (ix2 p k) * wa (ix2 k j)) + (∑ k : Fin 128, h (ix2 p k) * wb (ix2 k j)))
            + b (ix2 0 j)) 0 * w2 (ix2 j 0)) + b2 (ix2 0 0)) := by
  unfold Gen.k2_pay1
  simp only [shapeCast_self]
  rw [logistic2_apply, addf_apply, broadcastTo_1b_ab_apply]
  refine congrArg (fun z : EReal => Ideal.logistic (z + b2 (ix2 0 0))) ?_
  refine (matmul_zero_apply _ none _ _ p 0).trans ?_
  refine Finset.sum_congr rfl fun j _ => ?_
  have e1 : matmul (F := Ideal) dot_S5000x10_S10x1024_S5000x1024_1_0_0_1_n_n none (x : FVec Ideal S5000x10 .f32) (wa : FVec Ideal S10x1024 .f32)
      (constant (F := Ideal) S5000x1024 .f32 0x00000000#32) (ix2 p j) = ∑ k : Fin 10, x (ix2 p k) * wa (ix2 k j) :=
    matmul_zero_apply (φ₁ := .f32) (φ₂ := .f32) _ none x wa p j
  have e2 : matmul (F := Ideal) dot_S5000x128_S128x1024_S5000x1024_1_0_0_1_n_n none (h : FVec Ideal S5000x128 .f32) (wb : FVec Ideal S128x1024 .f32)
      (constant (F := Ideal) S5000x1024 .f32 0x00000000#32) (ix2 p j) = ∑ k : Fin 128, h (ix2 p k) * wb (ix2 k j) :=
    matmul_zero_apply (φ₁ := .f32) (φ₂ := .f32) _ none h wb p j
  rw [maximumf_apply, broadcast_apply, addf_apply, addf_apply, broadcastTo_1b_ab_apply, Ideal.ofBits_def,
    Ideal.ofBits_zero_f32, e1, e2]

/-- The same row against whole arrays: when row `p` of the two row tiles is row `r` of `X` and of `H` and the other
    five tiles are the arrays `Wa`, `Wb`, `B`, `W2`, `B2` entry by entry, the tile's row `p` is the read-out of row `r`. -/
theorem readout2_block (X : S50000x10.Idx → EReal) (H : S50000x128.Idx → EReal) (Wa : S10x1024.Idx → EReal)
    (Wb : S128x1024.Idx → EReal) (B : S1x1024.Idx → EReal) (W2 : S1024x1.Idx → EReal) (B2 : S1x1.Idx → EReal)
    (x : Vec Ideal S5000x10 .f32) (wa : Vec Ideal S10x1024 .f32) (h : Vec Ideal S5000x128 .f32)
    (wb : Vec Ideal S128x1024 .f32) (b : Vec Ideal S1x1024 .f32) (w2 : Vec Ideal S1024x1 .f32) (b2 : Vec Ideal S1x1 .f32)
    (p : Fin 5000) (r : Fin 50000)
    (hx : ∀ k : Fin 10, x (ix2 p k) = X (ix2 r k)) (hh : ∀ k : Fin 128, h (ix2 p k) = H (ix2 r k))
    (hwa : ∀ (k : Fin 10) (j : Fin 1024), wa (ix2 k j) = Wa (ix2 k j))
    (hwb : ∀ (k : Fin 128) (j : Fin 1024), wb (ix2 k j) = Wb (ix2 k j))
    (hb : ∀ j : Fin 1024, b (ix2 0 j) = B (ix2 0 j)) (hw2 : ∀ j : Fin 1024, w2 (ix2 j 0) = W2 (ix2 j 0))
    (hb2 : b2 (ix2 0 0) = B2 (ix2 0 0)) :
    (Gen.k2_pay1 (F := Ideal) x wa h wb b w2 b2 (ix2 p 0) : EReal) = Cert.Spec.readoutSplit X H Wa Wb B W2 B2 r := by
  rw [readout2_tile_apply]
  unfold Cert.Spec.readoutSplit
  simp only [hx, hh, hwa, hwb, hb, hw2, hb2]

/-! ## Where each window's block sits in its array -/

/-- Offsets `(0, 0)` are the zero offsets. -/
theorem offs2_zero : (![0, 0] : Fin 2 → Nat) = fun _ => 0 := funext fun a => by fin_cases a <;> rfl

/-- The index maps over the ten points: the two row-tiled inputs and the output are at block `(t, 0)`, the five weight
    and bias windows at block `(0, 0)`. -/
theorem index2 : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `p` of the node features' block at point `t` is row `5000 t + p` of the array. -/
theorem blk2_0_read (A : S50000x10.Idx → EReal) (t : Fin cfg2.N) (p : Fin 5000) (k : Fin 10) (r : Fin 50000)
    (hr : r.val = t.val * 5000 + p.val) :
    ((cfg2.win 0).blk t).view.read (Elt Ideal) A (ix2 p k) = A (ix2 r k) := by
  rw [View.read_apply]
  show A _ = A _
  refine congrArg A ?_
  funext a; apply Fin.ext
  obtain ⟨-, -, e0, e1, -⟩ := index2 t
  match a with
  | ⟨0, _⟩ => show win2_0.index t (0 : Fin 2) * 5000 + 1 * p.val = r.val; omega
  | ⟨1, _⟩ => show win2_0.index t (1 : Fin 2) * 10 + 1 * k.val = k.val; omega

/-- Row `p` of the hidden features' block at point `t` is row `5000 t + p` of the array. -/
theorem blk2_1_read (A : S50000x128.Idx → EReal) (t : Fin cfg2.N) (p : Fin 5000) (k : Fin 128) (r : Fin 50000)
    (hr : r.val = t.val * 5000 + p.val) :
    ((cfg2.win 1).blk t).view.read (Elt Ideal) A (ix2 p k) = A (ix2 r k) := by
  rw [View.read_apply]
  show A _ = A _
  refine congrArg A ?_
  funext a; apply Fin.ext
  obtain ⟨-, -, -, -, e0, e1, -⟩ := index2 t
  match a with
  | ⟨0, _⟩ => show win2_1.index t (0 : Fin 2) * 5000 + 1 * p.val = r.val; omega
  | ⟨1, _⟩ => show win2_1.index t (1 : Fin 2) * 128 + 1 * k.val = k.val; omega

/-- The block of the first weight matrix's upper rows is the whole array, at every point. -/
theorem blk2_2_read (A : S10x1024.Idx → EReal) (t : Fin cfg2.N) (k : Fin 10) (j : Fin 1024) :
    ((cfg2.win 2).blk t).view.read (Elt Ideal) A (ix2 k j) = A (ix2 k j) := by
  rw [View.read_apply]
  show A _ = A _
  refine congrArg A ?_
  funext a; apply Fin.ext
  obtain ⟨-, -, -, -, -, -, e0, e1, -⟩ := index2 t
  match a with
  | ⟨0, _⟩ => show win2_2.index t (0 : Fin 2) * 10 + 1 * k.val = k.val; omega
  | ⟨1, _⟩ => show win2_2.index t (1 : Fin 2) * 1024 + 1 * j.val = j.val; omega

/-- The block of the first weight matrix's lower rows is the whole array, at every point. -/
theorem blk2_3_read (A : S128x1024.Idx → EReal) (t : Fin cfg2.N) (k : Fin 128) (j : Fin 1024) :
    ((cfg2.win 3).blk t).view.read (Elt Ideal) A (ix2 k j) = A (ix2 k j) := by
  rw [View.read_apply]
  show A _ = A _
  refine congrArg A ?_
  funext a; apply Fin.ext
  obtain ⟨-, -, -, -, -, -, -, -, e0, e1, -⟩ := index2 t
  match a with
  | ⟨0, _⟩ => show win2_3.index t (0 : Fin 2) * 128 + 1 * k.val = k.val; omega
  | ⟨1, _⟩ => show win2_3.index t (1 : Fin 2) * 1024 + 1 * j.val = j.val; omega

/-- The first bias row's block is the whole row, at every point. -/
theorem blk2_4_read (A : S1x1024.Idx → EReal) (t : Fin cfg2.N) (k : Fin 1) (j : Fin 1024) :
    ((cfg2.win 4).blk t).view.read (Elt Ideal) A (ix2 k j) = A (ix2 k j) := by
  rw [View.read_apply]
  show A _ = A _
  refine congrArg A ?_
  funext a; apply Fin.ext
  obtain ⟨-, -, -, -, -, -, -, -, -, -, e0, e1, -⟩ := index2 t
  match a with
  | ⟨0, _⟩ => show win2_4.index t (0 : Fin 2) * 1 + 1 * k.val = k.val; omega
  | ⟨1, _⟩ => show win2_4.index t (1 : Fin 2) * 1024 + 1 * j.val = j.val; omega

/-- The second weight column's block is the whole column, at every point. -/
theorem blk2_5_read (A : S1024x1.Idx → EReal) (t : Fin cfg2.N) (k : Fin 1024) (j : Fin 1) :
    ((cfg2.win 5).blk t).view.read (Elt Ideal) A (ix2 k j) = A (ix2 k j) := by
  rw [View.read_apply]
  show A _ = A _
  refine congrArg A ?_
  funext a; apply Fin.ext
  obtain ⟨-, -, -, -, -, -, -, -, -, -, -, -, e0, e1, -⟩ := index2 t
  match a with
  | ⟨0, _⟩ => show win2_5.index t (0 : Fin 2) * 1024 + 1 * k.val = k.val; omega
  | ⟨1, _⟩ => show win2_5.index t (1 : Fin 2) * 1 + 1 * j.val = j.val; omega

/-- The second bias's block is its one entry, at every point. -/
theorem blk2_6_read (A : S1x1.Idx → EReal) (t : Fin cfg2.N) (k : Fin 1) (j : Fin 1) :
    ((cfg2.win 6).blk t).view.read (Elt Ideal) A (ix2 k j) = A (ix2 k j) := by
  rw [View.read_apply]
  show A _ = A _
  refine congrArg A ?_
  funext a; apply Fin.ext
  obtain ⟨-, -, -, -, -, -, -, -, -, -, -, -, -, -, e0, e1⟩ := index2 t
  match a with
  | ⟨0, _⟩ => show win2_6.index t (0 : Fin 2) * 1 + 1 * k.val = k.val; omega
  | ⟨1, _⟩ => show win2_6.index t (1 : Fin 2) * 1 + 1 * j.val = j.val; omega

/-- A column tile `f` is block `t` of a column `G` as soon as its row `p` is row `5000 t + p` of `G`, for every `p`. -/
theorem out2_block_ext (t : Fin cfg2.N) (f : Vec Ideal S5000x1 .f32) (G : S50000x1.Idx → EReal)
    (h : ∀ (p : Fin 5000) (r : Fin 50000), r.val = t.val * 5000 + p.val → f (ix2 p 0) = G (ix2 r 0)) :
    (cfg2.win 7).cut (grid2.coords t) f = ((cfg2.win 7).blk t).view.read (Elt Ideal) G := by
  funext j
  have hj0 : (j 0).val < 5000 := (j 0).isLt
  have hj1 : (j 1).val < 1 := (j 1).isLt
  have ht : t.val < 10 := Nat.lt_of_lt_of_eq t.isLt Gen.N_2
  obtain ⟨e0, e1, -⟩ := index2 t
  rw [View.read_apply]
  show f _ = G _
  refine (congrArg f ?_).trans ((h ⟨(j 0).val, hj0⟩ ⟨t.val * 5000 + (j 0).val, by omega⟩ rfl).trans (congrArg G ?_))
  · funext a; apply Fin.ext
    match a with
    | ⟨0, _⟩ => rfl
    | ⟨1, _⟩ => show (j 1).val = 0; omega
  · funext a; apply Fin.ext
    match a with
    | ⟨0, _⟩ => show t.val * 5000 + (j 0).val = win2_7.index t (0 : Fin 2) * 5000 + 1 * (j 0).val; omega
    | ⟨1, _⟩ => show 0 = win2_7.index t (1 : Fin 2) * 1 + 1 * (j 1).val; omega

/-! ## From the ten blocks to the column -/

/-- The output column as one function of the seven input arrays: the read-out of row `i 0`. -/
def readoutColumn2 (X : S50000x10.Idx → EReal) (H : S50000x128.Idx → EReal) (Wa : S10x1024.Idx → EReal)
    (Wb : S128x1024.Idx → EReal) (B : S1x1024.Idx → EReal) (W2 : S1024x1.Idx → EReal) (B2 : S1x1.Idx → EReal) :
    S50000x1.Idx → EReal := fun i => Cert.Spec.readoutSplit X H Wa Wb B W2 B2 (i 0)

/-- What point `t` writes back is block `t` of that column of the input arrays as the launch found them. -/
theorem flushed2_eq (V : (c : Dev nD) → (b : Ref sig .tc) → Buf (Elt Ideal) ((c : Thread nD τ).loc b)) (c : Dev nD)
    (t : Fin cfg2.N) :
    (Gen.dat2 V c).flushed 7 t = ((cfg2.win 7).blk t).view.read (Elt Ideal)
      (readoutColumn2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((Gen.dat2 V c).after 7 t) = _
  rw [Gen.after2_7]
  unfold Gen.out2_7
  rw [View.canon_unit_zero offs2_zero]
  simp only [View.ld_unit_zero (S := S5000x10) offs2_zero, View.ld_unit_zero (S := S5000x128) offs2_zero,
    View.ld_unit_zero (S := S10x1024) offs2_zero, View.ld_unit_zero (S := S128x1024) offs2_zero,
    View.ld_unit_zero (S := S1x1024) offs2_zero, View.ld_unit_zero (S := S1024x1) offs2_zero,
    View.ld_unit_zero (S := S1x1) offs2_zero]
  refine out2_block_ext t _ _ fun p r hr => ?_
  unfold Gen.iblk2 readoutColumn2
  exact readout2_block _ _ _ _ _ _ _ _ _ _ _ _ _ _ p r
    (fun k => blk2_0_read _ t p k r hr) (fun k => blk2_1_read _ t p k r hr)
    (fun k j => blk2_2_read _ t k j) (fun k j => blk2_3_read _ t k j)
    (fun j => blk2_4_read _ t 0 j) (fun j => blk2_5_read _ t j 0) (blk2_6_read _ t 0 0)

/-- An index of the column is in point `t`'s block iff each coordinate is in the block's range on its axis. -/
theorem mem_blk2 (t : Fin cfg2.N) (i : S50000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v63).slice (win2_7.rect t)).set ↔ _
  rw [View.set_slice_whole, Rect.mem_set_unit]
  exact Iff.rfl

/-- Every row of the column is in some point's block: row `r` in that of point `r / 5000`. -/
theorem cover2 (i : S50000x1.Idx) :
    ∃ t : Fin cfg2.N, (cfg2.win 7).flush t = true ∧ i ∈ ((cfg2.win 7).blk t).view.set := by
  have hi0 : (i 0).val < 50000 := (i 0).isLt
  have hi1 : (i 1).val < 1 := (i 1).isLt
  have hq : (i 0).val / 5000 < cfg2.N := Nat.lt_of_lt_of_eq (by omega) Gen.N_2.symm
  refine ⟨⟨(i 0).val / 5000, hq⟩, Gen.flush2_7 _, ?_⟩
  rw [mem_blk2]
  obtain ⟨e0, e1, -⟩ := index2 ⟨(i 0).val / 5000, hq⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 1 ≤ (i 1).val ∧ (i 1).val < win2_7.index _ (1 : Fin 2) * 1 + 1
    rw [e1]; omega

/-- The read-out, whole: after the ten grid points of the third launch, entry `(i, 0)` of its output column is the
    logistic function of `max (X · Wa + H · Wb + b, 0) · w2 + b2` at row `i`, for the launch's seven input arrays as it
    found them (node features `X`, hidden features `H`, the two row blocks `Wa`, `Wb` of the first weight matrix, its
    bias row `b`, the second weight column `w2`, its bias `b2`). -/
theorem region2_final (V : (c : Dev nD) → (b : Ref sig .tc) → Buf (Elt Ideal) ((c : Thread nD τ).loc b)) (c : Dev nD)
    (i : Fin 50000) :
    ((Gen.dat2 V c).arrAt 7 cfg2.N : S50000x1.Idx → EReal) (ix2 i 0)
      = Cert.Spec.readoutSplit (V c (Pipeline.arrRef spec2 0) : S50000x10.Idx → EReal)
          (V c (Pipeline.arrRef spec2 1) : S50000x128.Idx → EReal)
          (V c (Pipeline.arrRef spec2 2) : S10x1024.Idx → EReal)
          (V c (Pipeline.arrRef spec2 3) : S128x1024.Idx → EReal)
          (V c (Pipeline.arrRef spec2 4) : S1x1024.Idx → EReal)
          (V c (Pipeline.arrRef spec2 5) : S1024x1.Idx → EReal)
          (V c (Pipeline.arrRef spec2 6) : S1x1.Idx → EReal) i := by
  rw [(Gen.dat2 V c).arrAt_eq_of_cover 7 _ (fun t _ => flushed2_eq V c t) cover2]
  rfl

end Cert.KernelIdeal.Tiles

end
-- ==== Proof.AggRead.lean ====
/-
  The host's three-step aggregation — gather the source rows, scale each by its edge weight, scatter-add onto the
  landing rows of a zero table — read at one entry: it is the weighted neighbourhood sum `Spec.agg`. Also the
  in-degree count (a scatter-add of ones into a zero vector) read at one entry.
-/
import proofs.«180968_j47579647705688_2_alg».proof.Proof.Spec
import Idealize.ShloMosaic.Lib.Pipeline.Value
import Idealize.ShloMosaic.Lib.IdealHost

noncomputable section

open scoped BigOperators

namespace Cert.Spec

open Idealize.ShloMosaic Idealize.ShloMosaic.ValueIdx Cert.Lib.ScatterRows

/-- A flat vector laid out as a column and then repeated along each row reads, at `(e, q)`, its entry `e`. -/
theorem weight_col_row_apply {α : Type} {E D : Nat}
    (hc : (⟨1, ![E]⟩ : Shape).BroadcastsInDim ⟨2, ![E, 1]⟩ (![0] : Fin 1 → Fin 2))
    (hb : (⟨2, ![E, 1]⟩ : Shape).BroadcastsInDim ⟨2, ![E, D]⟩ (![0, 1] : Fin 2 → Fin 2))
    (v : (⟨1, ![E]⟩ : Shape).Idx → α) (e : Fin E) (q : Fin D) :
    broadcastInDim ⟨2, ![E, D]⟩ ![0, 1] hb (broadcastInDim ⟨2, ![E, 1]⟩ ![0] hc v) (ix2 e q) = v (ix1 e) := by
  refine (broadcastInDim_apply ![0, 1] hb _ (ix2 e q) (ix2 e (0 : Fin 1)) ?_).trans
    (broadcastInDim_col_apply hc v e)
  intro a
  match a with
  | ⟨0, _⟩ =>
    show e.val = if E = 1 then 0 else e.val
    split
    · have := e.isLt; omega
    · rfl
  | ⟨1, _⟩ =>
    show (0 : ℕ) = if (1 : ℕ) = 1 then 0 else q.val
    rw [if_pos rfl]

/-- Rows gathered at `sc`, scaled by the weights laid out as a column and repeated along the row, scatter-added at
    `dc` into the zero table: entry `(i, q)` is `agg dc sc nr M i q`. -/
theorem agg_read {D : Nat}
    (d : ScatterDims ⟨2, ![50000, D]⟩ ⟨2, ![650000, 1]⟩ ⟨2, ![650000, D]⟩)
    (h1 : d.updateWindowDims = [1]) (h2 : d.insertedWindowDims = [0]) (h3 : d.scatterDimsToOperandDims = [0])
    (h4 : d.indexVectorDim = 1)
    (g : GatherDims ⟨2, ![50000, D]⟩ ⟨2, ![650000, 1]⟩ ⟨2, ![650000, D]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, D])
    (hz : (⟨0, ![]⟩ : Shape).BroadcastsInDim ⟨2, ![50000, D]⟩ (![] : Fin 0 → Fin 2))
    (hc : (⟨1, ![650000]⟩ : Shape).BroadcastsInDim ⟨2, ![650000, 1]⟩ (![0] : Fin 1 → Fin 2))
    (hb : (⟨2, ![650000, 1]⟩ : Shape).BroadcastsInDim ⟨2, ![650000, D]⟩ (![0, 1] : Fin 2 → Fin 2))
    (dc sc : IVec ⟨2, ![650000, 1]⟩ 32) (nr : FVec Ideal ⟨1, ![650000]⟩ .f32) (M : FVec Ideal ⟨2, ![50000, D]⟩ .f32)
    (i : Fin 50000) (q : Fin D) :
    Host.scatterAdd (F := Ideal) d
        (broadcastInDim ⟨2, ![50000, D]⟩ ![] hz (constant (F := Ideal) ⟨0, ![]⟩ .f32 0x00000000#32)) dc
        (mulf (Host.gather g M sc)
          (broadcastInDim ⟨2, ![650000, D]⟩ ![0, 1] hb (broadcastInDim ⟨2, ![650000, 1]⟩ ![0] hc nr))) (ix2 i q)
      = agg dc sc nr M i q := by
  rw [host_scatterAdd_rows_apply d h1 h2 h3 h4, broadcastInDim_scalar_apply, constant_apply, Ideal.ofBits_zero_f32,
    zero_add]
  unfold agg
  refine Finset.sum_congr rfl fun e _ => ?_
  refine if_congr Iff.rfl ?_ rfl
  show FloatOps.mulf (Host.gather g M sc (ix2 e q))
      (broadcastInDim ⟨2, ![650000, D]⟩ ![0, 1] hb (broadcastInDim ⟨2, ![650000, 1]⟩ ![0] hc nr) (ix2 e q)) = _
  rw [Ideal.mulf_def, gather_rows_apply nodes_pos g g1 g2 g3 g4 g5 g6 g7 M sc e q,
    weight_col_row_apply hc hb nr e q]

/-- Ones scatter-added at `dc` into the zero vector: entry `i` counts the edges landing on node `i`. -/
theorem deg_read
    (d : ScatterDims ⟨1, ![50000]⟩ ⟨2, ![650000, 1]⟩ ⟨1, ![650000]⟩)
    (h1 : d.updateWindowDims = []) (h2 : d.insertedWindowDims = [0]) (h3 : d.scatterDimsToOperandDims = [0])
    (h4 : d.indexVectorDim = 1)
    (hz : (⟨0, ![]⟩ : Shape).BroadcastsInDim ⟨1, ![50000]⟩ (![] : Fin 0 → Fin 1))
    (ho : (⟨0, ![]⟩ : Shape).BroadcastsInDim ⟨1, ![650000]⟩ (![] : Fin 0 → Fin 1))
    (dc : IVec ⟨2, ![650000, 1]⟩ 32) (i : Fin 50000) :
    Host.scatterAdd (F := Ideal) d
        (broadcastInDim ⟨1, ![50000]⟩ ![] hz (constant (F := Ideal) ⟨0, ![]⟩ .f32 0x00000000#32)) dc
        (broadcastInDim ⟨1, ![650000]⟩ ![] ho (constant (F := Ideal) ⟨0, ![]⟩ .f32 0x3F800000#32)) (ix1 i)
      = ∑ e : Fin 650000, if (dc (ix2 e 0)).toInt = (i.val : ℤ) then (1 : EReal) else 0 := by
  rw [host_scatterAdd_flat_apply d h1 h2 h3 h4, broadcastInDim_scalar_apply, constant_apply, Ideal.ofBits_zero_f32,
    zero_add]
  refine Finset.sum_congr rfl fun e _ => ?_
  refine if_congr Iff.rfl ?_ rfl
  rw [broadcastInDim_scalar_apply, constant_apply, Ideal.ofBits_one_f32]

end Cert.Spec

end
-- ==== Proof.Algebra.lean ====
/-
  The algebra that joins the two programs, on the extended reals.

  Aggregating the rows of a table and then multiplying by a matrix gives the same table as multiplying first and
  aggregating afterwards: both are the double sum over edges and over the contracted coordinate of
  (source entry) · (weight) · (matrix entry). On the extended reals this exchange needs every factor to be a real
  number (a product with an infinity does not distribute over a sum), so finiteness is carried along: real tables
  stay real under `agg` and `dense`, a node's in-degree is a natural number at least one (its own loop lands on it),
  and so its reciprocal square root is a positive real.
-/
import proofs.«180968_j47579647705688_2_alg».proof.Proof.Spec

noncomputable section

open scoped BigOperators

namespace Cert.Spec

open Idealize.ShloMosaic Idealize.ShloMosaic.ValueIdx Cert.Lib.ScatterRows

/-- An extended real that is a real number. -/
def IsReal (v : EReal) : Prop := ∃ r : ℝ, v = (r : EReal)

/-- The coercion of a finite sum of real numbers is the sum of the coercions. -/
theorem coe_finset_sum {ι : Type*} (s : Finset ι) (f : ι → ℝ) :
    ((∑ a ∈ s, f a : ℝ) : EReal) = ∑ a ∈ s, (f a : EReal) := by
  classical
  refine Finset.induction_on s ?_ ?_
  · rw [Finset.sum_empty, Finset.sum_empty, EReal.coe_zero]
  · intro a s ha ih
    rw [Finset.sum_insert ha, Finset.sum_insert ha, EReal.coe_add, ih]

/-- A conditional between a real number and zero is the coercion of the real conditional. -/
theorem ite_coe_zero (c : Prop) [Decidable c] (a : ℝ) :
    (if c then (a : EReal) else 0) = ((if c then a else 0 : ℝ) : EReal) := by
  split_ifs
  · rfl
  · exact EReal.coe_zero.symm

/-- Zero is a real number. -/
theorem isReal_zero : IsReal 0 := ⟨0, EReal.coe_zero.symm⟩

/-- The sum of two real numbers is a real number. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The larger of two real numbers is a real number. -/
theorem isReal_max {a b : EReal} (ha : IsReal a) (hb : IsReal b) : IsReal (max a b) := by
  rcases le_total a b with h | h
  · rw [max_eq_right h]; exact hb
  · rw [max_eq_left h]; exact ha

/-- A finite sum of real numbers is a real number. -/
theorem isReal_sum {ι : Type*} (s : Finset ι) (f : ι → EReal) (hf : ∀ a, IsReal (f a)) : IsReal (∑ a ∈ s, f a) := by
  choose g hg using hf
  exact ⟨∑ a ∈ s, g a, by rw [coe_finset_sum]; exact Finset.sum_congr rfl fun a _ => hg a⟩

theorem agg_real {D : Nat} (dc sc : IVec ⟨2, ![650000, 1]⟩ 32) (nr : (⟨1, ![650000]⟩ : Shape).Idx → EReal)
    (M : (⟨2, ![50000, D]⟩ : Shape).Idx → EReal) (hM : ∀ j, IsReal (M j)) (hn : ∀ j, IsReal (nr j))
    (i : Fin 50000) (q : Fin D) : IsReal (agg dc sc nr M i q) := by
  unfold agg
  refine isReal_sum _ _ fun e => ?_
  split_ifs
  · exact isReal_mul (hM _) (hn _)
  · exact isReal_zero

theorem dense_real {K D : Nat} (A : (⟨2, ![50000, K]⟩ : Shape).Idx → EReal) (W : (⟨2, ![K, D]⟩ : Shape).Idx → EReal)
    (b : Fin D → EReal) (hA : ∀ j, IsReal (A j)) (hW : ∀ j, IsReal (W j)) (hb : ∀ q, IsReal (b q))
    (i : Fin 50000) (q : Fin D) : IsReal (dense A W b i q) := by
  unfold dense
  exact isReal_max (isReal_add (isReal_sum _ _ fun t => isReal_mul (hA _) (hW _)) (hb q)) isReal_zero

/-- A plain product of real tables is real. -/
theorem prod_real {K D : Nat} (M : (⟨2, ![50000, K]⟩ : Shape).Idx → EReal) (W : (⟨2, ![K, D]⟩ : Shape).Idx → EReal)
    (hM : ∀ j, IsReal (M j)) (hW : ∀ j, IsReal (W j)) (r : Fin 50000) (q : Fin D) :
    IsReal (∑ t : Fin K, M (ix2 r t) * W (ix2 t q)) :=
  isReal_sum _ _ fun t => isReal_mul (hM _) (hW _)

/-- AGGREGATION COMMUTES WITH A PRODUCT ON THE RIGHT, for real tables and real weights: `P` is the product `M · W`. -/
theorem agg_linear {K D : Nat} (dc sc : IVec ⟨2, ![650000, 1]⟩ 32) (nr : (⟨1, ![650000]⟩ : Shape).Idx → EReal)
    (M : (⟨2, ![50000, K]⟩ : Shape).Idx → EReal) (W : (⟨2, ![K, D]⟩ : Shape).Idx → EReal)
    (P : (⟨2, ![50000, D]⟩ : Shape).Idx → EReal)
    (hP : ∀ (r : Fin 50000) (q : Fin D), P (ix2 r q) = ∑ t : Fin K, M (ix2 r t) * W (ix2 t q))
    (hM : ∀ j, IsReal (M j)) (hW : ∀ j, IsReal (W j)) (hn : ∀ j, IsReal (nr j))
    (i : Fin 50000) (q : Fin D) :
    ∑ t : Fin K, agg dc sc nr M i t * W (ix2 t q) = agg dc sc nr P i q := by
  -- real-valued tables behind the three extended-real ones
  choose m hm using hM
  choose w hw using hW
  choose n hn' using hn
  -- the aggregate of `M` at column `t` is the coercion of a real sum
  have hL : ∀ t : Fin K, agg dc sc nr M i t
      = ((∑ e : Fin 650000, if (dc (ix2 e 0)).toInt = (i.val : ℤ)
          then m (ix2 (clampRow 50000 nodes_pos (sc (ix2 e 0)).toInt) t) * n (ix1 e) else 0 : ℝ) : EReal) := by
    intro t
    unfold agg
    rw [coe_finset_sum]
    refine Finset.sum_congr rfl fun e _ => ?_
    rw [← ite_coe_zero, EReal.coe_mul, ← hm, ← hn']
  -- every row of the product `P`, at column `q`, is the coercion of a real sum
  have hPr : ∀ r : Fin 50000, P (ix2 r q) = ((∑ t : Fin K, m (ix2 r t) * w (ix2 t q) : ℝ) : EReal) := by
    intro r
    rw [hP, coe_finset_sum]
    refine Finset.sum_congr rfl fun t _ => ?_
    rw [EReal.coe_mul, ← hm, ← hw]
  -- the left side as the coercion of a real double sum
  have hlhs : ∑ t : Fin K, agg dc sc nr M i t * W (ix2 t q)
      = ((∑ t : Fin K, (∑ e : Fin 650000, if (dc (ix2 e 0)).toInt = (i.val : ℤ)
          then m (ix2 (clampRow 50000 nodes_pos (sc (ix2 e 0)).toInt) t) * n (ix1 e) else 0) * w (ix2 t q) : ℝ) : EReal) := by
    rw [coe_finset_sum]
    refine Finset.sum_congr rfl fun t _ => ?_
    rw [EReal.coe_mul, ← hL, ← hw]
  -- the right side as the coercion of a real double sum
  have hrhs : agg dc sc nr P i q
      = ((∑ e : Fin 650000, if (dc (ix2 e 0)).toInt = (i.val : ℤ)
          then (∑ t : Fin K, m (ix2 (clampRow 50000 nodes_pos (sc (ix2 e 0)).toInt) t) * w (ix2 t q)) * n (ix1 e)
          else 0 : ℝ) : EReal) := by
    unfold agg
    rw [coe_finset_sum]
    refine Finset.sum_congr rfl fun e _ => ?_
    rw [← ite_coe_zero, EReal.coe_mul, ← hPr, ← hn']
  rw [hlhs, hrhs, EReal.coe_eq_coe_iff]
  -- the identity on the reals: distribute, exchange the two sums, compare edge by edge
  simp only [Finset.sum_mul, ite_mul, zero_mul]
  rw [Finset.sum_comm]
  refine Finset.sum_congr rfl fun e _ => ?_
  by_cases hc : (dc (ix2 e 0)).toInt = (i.val : ℤ)
  · simp only [if_pos hc]
    exact Finset.sum_congr rfl fun t _ => by ring
  · simp only [if_neg hc, Finset.sum_const_zero]

/-- The same for a dense layer fed by an aggregated table `A`: it is the rectified, biased aggregate of the product. -/
theorem dense_of_agg {K D : Nat} (dc sc : IVec ⟨2, ![650000, 1]⟩ 32) (nr : (⟨1, ![650000]⟩ : Shape).Idx → EReal)
    (M : (⟨2, ![50000, K]⟩ : Shape).Idx → EReal) (W : (⟨2, ![K, D]⟩ : Shape).Idx → EReal)
    (A : (⟨2, ![50000, K]⟩ : Shape).Idx → EReal) (hA : ∀ (r : Fin 50000) (t : Fin K), A (ix2 r t) = agg dc sc nr M r t)
    (P : (⟨2, ![50000, D]⟩ : Shape).Idx → EReal)
    (hP : ∀ (r : Fin 50000) (q : Fin D), P (ix2 r q) = ∑ t : Fin K, M (ix2 r t) * W (ix2 t q))
    (b : Fin D → EReal)
    (hM : ∀ j, IsReal (M j)) (hW : ∀ j, IsReal (W j)) (hn : ∀ j, IsReal (nr j))
    (i : Fin 50000) (q : Fin D) :
    dense A W b i q = max (agg dc sc nr P i q + b q) 0 := by
  unfold dense
  rw [← agg_linear dc sc nr M W P hP hM hW hn i q]
  simp only [hA]

/-- A node on which at least one edge lands has an in-degree that is a natural number at least one. -/
theorem deg_nat (dc : IVec ⟨2, ![650000, 1]⟩ 32) (i : Fin 50000)
    (hloop : ∃ e : Fin 650000, (dc (ix2 e 0)).toInt = (i.val : ℤ)) :
    ∃ k : ℕ, 1 ≤ k ∧ (∑ e : Fin 650000, if (dc (ix2 e 0)).toInt = (i.val : ℤ) then (1 : EReal) else 0) = ((k : ℝ) : EReal) := by
  classical
  refine ⟨(Finset.univ.filter fun e : Fin 650000 => (dc (ix2 e 0)).toInt = (i.val : ℤ)).card, ?_, ?_⟩
  · obtain ⟨e, he⟩ := hloop
    exact Finset.card_pos.mpr ⟨e, Finset.mem_filter.mpr ⟨Finset.mem_univ e, he⟩⟩
  · have hreal : (∑ e : Fin 650000, if (dc (ix2 e 0)).toInt = (i.val : ℤ) then (1 : ℝ) else 0)
        = ((Finset.univ.filter fun e : Fin 650000 => (dc (ix2 e 0)).toInt = (i.val : ℤ)).card : ℝ) :=
      Finset.sum_boole _ _
    rw [← hreal, coe_finset_sum]
    refine Finset.sum_congr rfl fun e _ => ?_
    rw [← ite_coe_zero, EReal.coe_one]

/-- Such an in-degree is unchanged by the maximum with one (the real one, as an extended real). -/
theorem max_one_of_nat (v : EReal) (h : ∃ k : ℕ, 1 ≤ k ∧ v = ((k : ℝ) : EReal)) : max v ((1 : ℝ) : EReal) = v := by
  obtain ⟨k, hk, rfl⟩ := h
  refine max_eq_left (EReal.coe_le_coe_iff.mpr ?_)
  exact_mod_cast hk

/-- Its reciprocal square root is a real number. -/
theorem rsqrt_real_of_nat (v : EReal) (h : ∃ k : ℕ, 1 ≤ k ∧ v = ((k : ℝ) : EReal)) : IsReal (Ideal.rsqrt v) := by
  obtain ⟨k, hk, rfl⟩ := h
  have hpos : (0 : ℝ) < (k : ℝ) := by exact_mod_cast hk
  rw [Ideal.rsqrt_coe, if_neg (not_lt.mpr hpos.le), if_neg hpos.ne']
  exact ⟨_, rfl⟩

/-- THE READ-OUT ON THE CONCATENATED FEATURES. If row `i` of `cat` is row `i` of `x` followed by row `i` of `h`, the
    product of `cat` with `W` splits into the two partial products, and `1 / (1 + exp (−z))` is the logistic function. -/
theorem readout_of_concat (x : (⟨2, ![50000, 10]⟩ : Shape).Idx → EReal) (h : (⟨2, ![50000, 128]⟩ : Shape).Idx → EReal)
    (cat : (⟨2, ![50000, 138]⟩ : Shape).Idx → EReal)
    (hL : ∀ (r : Fin 50000) (k : Fin 10), cat (ix2 r (⟨k.val, by omega⟩ : Fin 138)) = x (ix2 r k))
    (hR : ∀ (r : Fin 50000) (k : Fin 128), cat (ix2 r (⟨10 + k.val, by omega⟩ : Fin 138)) = h (ix2 r k))
    (W : (⟨2, ![138, 1024]⟩ : Shape).Idx → EReal) (b : Fin 1024 → EReal) (w2 : Fin 1024 → EReal) (b2 : EReal)
    (i : Fin 50000) :
    Ideal.div 1 (1 + Ideal.exp (-((∑ j : Fin 1024, max ((∑ k : Fin 138, cat (ix2 i k) * W (ix2 k j)) + b j) 0 * w2 j) + b2)))
      = readout x h W b w2 b2 i := by
  -- the product with `W` splits into the first 10 and the last 128 terms
  have key : ∀ j : Fin 1024, ∑ k : Fin 138, cat (ix2 i k) * W (ix2 k j)
      = (∑ k : Fin 10, x (ix2 i k) * W (ix2 (⟨k.val, by omega⟩ : Fin 138) j))
        + (∑ k : Fin 128, h (ix2 i k) * W (ix2 (⟨10 + k.val, by omega⟩ : Fin 138) j)) := by
    intro j
    rw [sum_fin_add_ereal (show 138 = 10 + 128 by norm_num) (fun k => cat (ix2 i k) * W (ix2 k j))]
    congr 1
    · exact Finset.sum_congr rfl fun k _ => by rw [hL]
    · exact Finset.sum_congr rfl fun k _ => by rw [hR]
  unfold readout Ideal.logistic
  simp only [key]

end Cert.Spec

end
-- ==== Proof.RefIndex.lean ====
/-
  The reference's edge bookkeeping, read at an entry. The landing column holds, for edge `e`, the second row of the
  edge list followed by the node numbers `0 … 49999` (the loops); so the loop of node `i` lands on `i`, every
  in-degree is a natural number at least one, the maximum with one changes nothing, and every edge weight (the product of
  two reciprocal square roots of in-degrees) is a real number. The reference computes this bookkeeping twice, once per
  graph convolution, by the same operations of the same edge list: the second copy equals the first.
-/
import proofs.«180968_j47579647705688_2_alg».proof.Proof.Gen.ReferenceIdeal.Read
import proofs.«180968_j47579647705688_2_alg».proof.Proof.Spec
import proofs.«180968_j47579647705688_2_alg».proof.Proof.AggRead
import proofs.«180968_j47579647705688_2_alg».proof.Proof.Algebra

noncomputable section

open scoped BigOperators

namespace Cert.RefRead

open Cert.ReferenceIdeal Cert.ReferenceIdeal.Read Idealize.ShloMosaic Idealize.ShloMosaic.ValueIdx

variable (x9 : (⟨S2x600000, .i32⟩ : BufTy).Contents (Elt Ideal))

open Cert.Lib.ScatterRows Facts₀ in
/-- The loop of node `i` (edge number `600000 + i`) lands on node `i`. -/
theorem loop_lands (i : Fin 50000) :
    ∃ e : Fin 650000, (val_main_v39 (F := Ideal) x9 (ix2 e 0)).toInt = (i.val : ℤ) := by
  have hi : i.val < 50000 := i.isLt
  have he : 600000 + i.val < 650000 := by omega
  refine ⟨⟨600000 + i.val, he⟩, ?_⟩
  -- the column at `(e, 0)` is the flat landing list at `e`
  have h1 : val_main_v39 (F := Ideal) x9 (ix2 (⟨600000 + i.val, he⟩ : Fin 650000) 0)
      = val_main_v7 (F := Ideal) x9 (ix1 ⟨600000 + i.val, he⟩) := by
    unfold val_main_v39
    exact broadcastInDim_col_apply bcast_S650000_S650000x1_0 (val_main_v7 (F := Ideal) x9) ⟨600000 + i.val, he⟩
  -- past the 600000 given edges the landing list is the node numbering, so entry `600000 + i` is the word `i`
  have h2 : val_main_v7 (F := Ideal) x9 (ix1 (⟨600000 + i.val, he⟩ : Fin 650000))
      = BitVec.ofNat 32 i.val := by
    unfold val_main_v7
    rw [concatenate_flat_apply (by norm_num : 650000 = 600000 + 50000)]
    rw [dif_neg (by show ¬ (600000 + i.val < 600000); omega)]
    rw [val_main_v5_apply]
    show BitVec.ofNat 32 (600000 + i.val - 600000) = BitVec.ofNat 32 i.val
    rw [Nat.add_sub_cancel_left]
  rw [h1, h2]
  exact toInt_ofNat_small i.val (by omega)

open Facts₀ in
/-- The in-degree of node `i` counts the edges landing on it. -/
theorem deg_apply (i : Fin 50000) :
    val_main_v11 (F := Ideal) x9 (ix1 i)
      = ∑ e : Fin 650000, if (val_main_v39 (F := Ideal) x9 (ix2 e 0)).toInt = (i.val : ℤ) then (1 : EReal) else 0 := by
  have h39 : val_main_v39 (F := Ideal) x9 = val_main_v10 (F := Ideal) x9 := rfl
  rw [h39]
  unfold val_main_v11 val_main_v9 val_main_v8 val_main_cst_0 val_main_cst
  exact Cert.Spec.deg_read scatter_S50000_S650000x1_S650000_n_0_0_1 rfl rfl rfl rfl
    bcast_S_S50000 bcast_S_S650000 (val_main_v10 (F := Ideal) x9) i

/-- Every in-degree is at least one, so the maximum with the all-ones vector leaves the in-degrees unchanged. -/
theorem max_deg (hb : S_.BroadcastsInDim S50000 (![] : Fin 0 → Fin S50000.rank)) :
    maximumf (val_main_v11 (F := Ideal) x9) (broadcastInDim S50000 ![] hb (constant (F := Ideal) S_ .f32 0x3F800000#32))
      = val_main_v11 (F := Ideal) x9 := by
  funext j
  obtain ⟨i, rfl⟩ : ∃ i : Fin 50000, j = ix1 i := ⟨j 0, eq_ix1 j⟩
  rw [maximumf_apply, broadcastInDim_scalar_apply, constant_apply, Ideal.ofBits_one_f32, deg_apply x9 i]
  have h := Cert.Spec.max_one_of_nat _
    (Cert.Spec.deg_nat (val_main_v39 (F := Ideal) x9) i (loop_lands x9 i))
  rwa [EReal.coe_one] at h

open Cert.Lib.ScatterRows in
/-- Every edge weight is a real number. -/
theorem nr_real (j : S650000.Idx) : Cert.Spec.IsReal (val_main_v27 (F := Ideal) x9 j) := by
  obtain ⟨e, rfl⟩ : ∃ e : Fin 650000, j = ix1 e := ⟨j 0, eq_ix1 j⟩
  -- the reciprocal square root of an in-degree is real: the in-degree is a natural number at least one
  have hv12 : ∀ r : Fin 50000, Cert.Spec.IsReal (val_main_v12 (F := Ideal) x9 (ix1 r)) := by
    intro r
    rw [val_main_v12_apply, Ideal.hostUnary_rsqrt_def, deg_apply x9 r]
    exact Cert.Spec.rsqrt_real_of_nat _
      (Cert.Spec.deg_nat (val_main_v39 (F := Ideal) x9) r (loop_lands x9 r))
  -- each gathered factor is such an entry, at the clamped node
  have h19 : val_main_v19 (F := Ideal) x9 (ix1 e)
      = val_main_v12 (F := Ideal) x9
          (ix1 (clampRow 50000 Cert.Spec.nodes_pos (val_main_v18 (F := Ideal) x9 (ix2 e 0)).toInt)) := by
    unfold val_main_v19
    exact gather_flat_apply Cert.Spec.nodes_pos gather_S50000_S650000x1_S650000_n_0_n_n_0_1_1
      rfl rfl rfl rfl rfl rfl rfl (val_main_v12 (F := Ideal) x9) (val_main_v18 (F := Ideal) x9) e
  have h26 : val_main_v26 (F := Ideal) x9 (ix1 e)
      = val_main_v12 (F := Ideal) x9
          (ix1 (clampRow 50000 Cert.Spec.nodes_pos (val_main_v25 (F := Ideal) x9 (ix2 e 0)).toInt)) := by
    unfold val_main_v26
    exact gather_flat_apply Cert.Spec.nodes_pos gather_S50000_S650000x1_S650000_n_0_n_n_0_1_1
      rfl rfl rfl rfl rfl rfl rfl (val_main_v12 (F := Ideal) x9) (val_main_v25 (F := Ideal) x9) e
  -- the weight is their product, and a product of two reals is real
  rw [val_main_v27_apply, Ideal.mulf_def, h19, h26]
  obtain ⟨a, ha⟩ := hv12 (clampRow 50000 Cert.Spec.nodes_pos (val_main_v18 (F := Ideal) x9 (ix2 e 0)).toInt)
  obtain ⟨b, hb⟩ := hv12 (clampRow 50000 Cert.Spec.nodes_pos (val_main_v25 (F := Ideal) x9 (ix2 e 0)).toInt)
  exact ⟨a * b, by rw [ha, hb, EReal.coe_mul]⟩

/-- The second convolution's landing column, source column and weights are the first's. -/
theorem dc2 : val_main_v80 (F := Ideal) x9 = val_main_v39 (F := Ideal) x9 := by
  rfl
theorem sc2 : val_main_v74 (F := Ideal) x9 = val_main_v33 (F := Ideal) x9 := by
  rfl
theorem nr2 : val_main_v68 (F := Ideal) x9 = val_main_v27 (F := Ideal) x9 := by
  rfl

end Cert.RefRead

end
-- ==== Proof.KValue.lean ====
/-
  What the kernel program's result buffer holds, as a function of the argument arrays.

  The buffers' contents are followed from boundary to boundary of the program's three launches (the generated frame's
  `Gen.W0 … Gen.W6`). A host stretch rewrites the buffers its operations write (module KHost) and keeps the others; a
  launch rewrites its output array to what its ten grid points leave (modules Tile0, Tile1, Tile2) and keeps the
  others. Walking back: the result is the read-out of the node features and the second hidden table; the second hidden
  table is the dense layer of the aggregated first hidden table; the first hidden table is the dense layer of the
  aggregated node features; the edge bookkeeping is the reference's, the maximum of an in-degree with one being that
  in-degree.
-/
import proofs.«180968_j47579647705688_2_alg».proof.Proof.KHost
import proofs.«180968_j47579647705688_2_alg».proof.Proof.Tile0
import proofs.«180968_j47579647705688_2_alg».proof.Proof.Tile1
import proofs.«180968_j47579647705688_2_alg».proof.Proof.Tile2
import proofs.«180968_j47579647705688_2_alg».proof.Proof.AggRead
import proofs.«180968_j47579647705688_2_alg».proof.Proof.RefIndex
import Idealize.ShloMosaic.Lib.ValueLayout

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.ReferenceIdeal.Read

variable (m : (ℓ : Loc nD τ sig) → Buf (Elt Ideal) ℓ) (ρ : Dev nD → PrngReg) (c : Dev nD)

/-! ## The argument arrays at the boundaries where they are read -/

theorem W1_arg1 : W1 m ρ c (Proc.devRef .tc main_arg1) = m ((c : Thread nD τ).loc main_arg1) :=
  KHost.host0_arg1 (W0 m ρ c)

theorem W3_arg3 : W3 m ρ c (Proc.devRef .tc main_arg3) = m ((c : Thread nD τ).loc main_arg3) :=
  (KHost.host1_arg3 (W2 m ρ c)).trans ((W2_of_ne m ρ c main_arg3 (by decide)).trans (KHost.host0_arg3 (W0 m ρ c)))

theorem W2_arg4 : W2 m ρ c (Proc.devRef .tc main_arg4) = m ((c : Thread nD τ).loc main_arg4) :=
  (W2_of_ne m ρ c main_arg4 (by decide)).trans (KHost.host0_arg4 (W0 m ρ c))

theorem W4_arg5 : W4 m ρ c (Proc.devRef .tc main_arg5) = m ((c : Thread nD τ).loc main_arg5) :=
  (W4_of_ne m ρ c main_arg5 (by decide)).trans ((KHost.host1_arg5 (W2 m ρ c)).trans
    ((W2_of_ne m ρ c main_arg5 (by decide)).trans (KHost.host0_arg5 (W0 m ρ c))))

theorem W4_arg6 : W4 m ρ c (Proc.devRef .tc main_arg6) = m ((c : Thread nD τ).loc main_arg6) :=
  (W4_of_ne m ρ c main_arg6 (by decide)).trans ((KHost.host1_arg6 (W2 m ρ c)).trans
    ((W2_of_ne m ρ c main_arg6 (by decide)).trans (KHost.host0_arg6 (W0 m ρ c))))

theorem W4_arg8 : W4 m ρ c (Proc.devRef .tc main_arg8) = m ((c : Thread nD τ).loc main_arg8) :=
  (W4_of_ne m ρ c main_arg8 (by decide)).trans ((KHost.host1_arg8 (W2 m ρ c)).trans
    ((W2_of_ne m ρ c main_arg8 (by decide)).trans (KHost.host0_arg8 (W0 m ρ c))))

theorem W5_arg0 : W5 m ρ c (Proc.devRef .tc main_arg0) = m ((c : Thread nD τ).loc main_arg0) :=
  (KHost.host2_arg0 (W4 m ρ c)).trans ((W4_of_ne m ρ c main_arg0 (by decide)).trans ((KHost.host1_arg0 (W2 m ρ c)).trans
    ((W2_of_ne m ρ c main_arg0 (by decide)).trans (KHost.host0_arg0 (W0 m ρ c)))))

theorem W5_arg7 : W5 m ρ c (Proc.devRef .tc main_arg7) = m ((c : Thread nD τ).loc main_arg7) :=
  (KHost.host2_arg7 (W4 m ρ c)).trans ((W4_of_ne m ρ c main_arg7 (by decide)).trans ((KHost.host1_arg7 (W2 m ρ c)).trans
    ((W2_of_ne m ρ c main_arg7 (by decide)).trans (KHost.host0_arg7 (W0 m ρ c)))))

/-! ## The edge bookkeeping when the second stretch is entered -/

theorem W2_v5 : W2 m ρ c (Proc.devRef .tc main_v5) = val_main_v6 (F := Ideal) (m ((c : Thread nD τ).loc main_arg9)) :=
  (W2_of_ne m ρ c main_v5 (by decide)).trans (KHost.host0_v5 (W0 m ρ c))

theorem W2_v6 : W2 m ρ c (Proc.devRef .tc main_v6) = val_main_v7 (F := Ideal) (m ((c : Thread nD τ).loc main_arg9)) :=
  (W2_of_ne m ρ c main_v6 (by decide)).trans (KHost.host0_v6 (W0 m ρ c))

theorem W2_v28 : W2 m ρ c (Proc.devRef .tc main_v28) = KHost.kNorm (F := Ideal) (m ((c : Thread nD τ).loc main_arg9)) :=
  (W2_of_ne m ρ c main_v28 (by decide)).trans (KHost.host0_v28 (W0 m ρ c))

/-! ## The kernel's edge weights are the reference's -/

/-- Every in-degree is at least one, so the kernel's maximum with one changes nothing: its edge weights are the
    reference's. -/
theorem kNorm_eq (x9 : (⟨S2x600000, .i32⟩ : BufTy).Contents (Elt Ideal)) :
    KHost.kNorm (F := Ideal) x9 = val_main_v27 (F := Ideal) x9 := by
  unfold KHost.kNorm KHost.kDinv
  rw [Cert.RefRead.max_deg]
  rfl

/-! ## The five tables, each read at an entry -/

/-- The aggregated node features (the first launch's first input array). -/
theorem A1_apply (i : Fin 50000) (k : Fin 10) :
    (W1 m ρ c (Proc.devRef .tc main_v41) : S50000x10.Idx → EReal) (ix2 i k)
      = Cert.Spec.agg (val_main_v39 (F := Ideal) (m ((c : Thread nD τ).loc main_arg9)))
          (val_main_v33 (F := Ideal) (m ((c : Thread nD τ).loc main_arg9)))
          (val_main_v27 (F := Ideal) (m ((c : Thread nD τ).loc main_arg9)))
          (m ((c : Thread nD τ).loc main_arg0)) i k := by
  have h := KHost.host0_v41 (F := Ideal) (W0 m ρ c)
  rw [kNorm_eq] at h
  refine (congrFun h (ix2 i k)).trans ?_
  exact Cert.Spec.agg_read _ rfl rfl rfl rfl _ rfl rfl rfl rfl rfl rfl rfl _ _ _ _ _ _ _ _ _

/-- The first hidden table (the first launch's output array): the dense layer of the aggregated node features. -/
theorem H1K_apply (i : Fin 50000) (q : Fin 128) :
    (W2 m ρ c (Proc.devRef .tc main_v43) : S50000x128.Idx → EReal) (ix2 i q)
      = Cert.Spec.dense (W1 m ρ c (Proc.devRef .tc main_v41) : S50000x10.Idx → EReal)
          (m ((c : Thread nD τ).loc main_arg1))
          (fun q' => (m ((c : Thread nD τ).loc main_arg2) : S128.Idx → EReal) (ix1 q')) i q := by
  refine (congrFun (W2_arr m ρ c 3) (ix2 i q)).trans ?_
  refine (Tiles.region0_final (V1 m ρ) c i q).trans ?_
  have e1 : (V1 m ρ c (Pipeline.arrRef spec0 1) : S10x128.Idx → EReal) = m ((c : Thread nD τ).loc main_arg1) :=
    W1_arg1 m ρ c
  have e2 : (V1 m ρ c (Pipeline.arrRef spec0 2) : S1x128.Idx → EReal)
      = shapeCast _ (m ((c : Thread nD τ).loc main_arg2) : S128.Idx → EReal) shapeCasts_S128_S1x128 :=
    KHost.host0_v42 (F := Ideal) (W0 m ρ c)
  rw [e1, e2]
  simp only [shapeCast_a_1a_apply]

/-- The aggregated first hidden table (the second launch's first input array). -/
theorem A2_apply (i : Fin 50000) (k : Fin 128) :
    (W3 m ρ c (Proc.devRef .tc main_v56) : S50000x128.Idx → EReal) (ix2 i k)
      = Cert.Spec.agg (val_main_v39 (F := Ideal) (m ((c : Thread nD τ).loc main_arg9)))
          (val_main_v33 (F := Ideal) (m ((c : Thread nD τ).loc main_arg9)))
          (val_main_v27 (F := Ideal) (m ((c : Thread nD τ).loc main_arg9)))
          (W2 m ρ c (Proc.devRef .tc main_v43) : S50000x128.Idx → EReal) i k := by
  have h := KHost.host1_v56 (F := Ideal) (W2 m ρ c) (m ((c : Thread nD τ).loc main_arg9)) (W2_v5 m ρ c) (W2_v6 m ρ c)
  rw [W2_v28, kNorm_eq] at h
  refine (congrFun h (ix2 i k)).trans ?_
  exact Cert.Spec.agg_read _ rfl rfl rfl rfl _ rfl rfl rfl rfl rfl rfl rfl _ _ _ _ _ _ _ _ _

/-- The second hidden table (the second launch's output array): the dense layer of the aggregated first one. -/
theorem H2K_apply (i : Fin 50000) (q : Fin 128) :
    (W4 m ρ c (Proc.devRef .tc main_v58) : S50000x128.Idx → EReal) (ix2 i q)
      = Cert.Spec.dense (W3 m ρ c (Proc.devRef .tc main_v56) : S50000x128.Idx → EReal)
          (m ((c : Thread nD τ).loc main_arg3))
          (fun q' => (m ((c : Thread nD τ).loc main_arg4) : S128.Idx → EReal) (ix1 q')) i q := by
  refine (congrFun (W4_arr m ρ c 3) (ix2 i q)).trans ?_
  refine (Tiles.region1_final (V3 m ρ) c i q).trans ?_
  have e1 : (V3 m ρ c (Pipeline.arrRef spec1 1) : S128x128.Idx → EReal) = m ((c : Thread nD τ).loc main_arg3) :=
    W3_arg3 m ρ c
  have e2 : (V3 m ρ c (Pipeline.arrRef spec1 2) : S1x128.Idx → EReal)
      = shapeCast _ (m ((c : Thread nD τ).loc main_arg4) : S128.Idx → EReal) shapeCasts_S128_S1x128 :=
    (KHost.host1_v57 (F := Ideal) (W2 m ρ c)).trans (by rw [W2_arg4])
  rw [e1, e2]
  simp only [shapeCast_a_1a_apply]

/-- Equal tables have equal read-outs. -/
theorem readoutSplit_congr {x x' : (⟨2, ![50000, 10]⟩ : Shape).Idx → EReal} {h h' : (⟨2, ![50000, 128]⟩ : Shape).Idx → EReal}
    {Wa Wa' : (⟨2, ![10, 1024]⟩ : Shape).Idx → EReal} {Wb Wb' : (⟨2, ![128, 1024]⟩ : Shape).Idx → EReal}
    {b b' : (⟨2, ![1, 1024]⟩ : Shape).Idx → EReal} {w2 w2' : (⟨2, ![1024, 1]⟩ : Shape).Idx → EReal}
    {b2 b2' : (⟨2, ![1, 1]⟩ : Shape).Idx → EReal}
    (e0 : x = x') (e1 : h = h') (e2 : Wa = Wa') (e3 : Wb = Wb') (e4 : b = b') (e5 : w2 = w2') (e6 : b2 = b2')
    (i : Fin 50000) :
    Cert.Spec.readoutSplit x h Wa Wb b w2 b2 i = Cert.Spec.readoutSplit x' h' Wa' Wb' b' w2' b2' i := by
  subst e0 e1 e2 e3 e4 e5 e6
  rfl

set_option maxHeartbeats 2000000 in
/-- The result (the third launch's output array): the read-out of the node features and the second hidden table,
    the read-out weights cut into their two row blocks and the biases laid out as rows. -/
theorem out_apply (i : Fin 50000) :
    (W6 m ρ c (Proc.devRef .tc main_v63) : S50000x1.Idx → EReal) (ix2 i 0)
      = Cert.Spec.readoutSplit (m ((c : Thread nD τ).loc main_arg0))
          (W4 m ρ c (Proc.devRef .tc main_v58) : S50000x128.Idx → EReal)
          (extractStridedSlice S10x1024 ![0, 0] (m ((c : Thread nD τ).loc main_arg5) : S138x1024.Idx → EReal) slices_S138x1024_S10x1024_0_0)
          (extractStridedSlice S128x1024 ![10, 0] (m ((c : Thread nD τ).loc main_arg5) : S138x1024.Idx → EReal) slices_S138x1024_S128x1024_10_0)
          (shapeCast _ (m ((c : Thread nD τ).loc main_arg6) : S1024.Idx → EReal) shapeCasts_S1024_S1x1024)
          (m ((c : Thread nD τ).loc main_arg7))
          (shapeCast _ (m ((c : Thread nD τ).loc main_arg8) : S1.Idx → EReal) shapeCasts_S1_S1x1) i := by
  refine (congrFun (W6_arr m ρ c 7) (ix2 i 0)).trans ?_
  refine (Tiles.region2_final (V5 m ρ) c i).trans ?_
  have e0 : (V5 m ρ c (Pipeline.arrRef spec2 0) : S50000x10.Idx → EReal) = m ((c : Thread nD τ).loc main_arg0) :=
    W5_arg0 m ρ c
  have e1 : (V5 m ρ c (Pipeline.arrRef spec2 1) : S50000x128.Idx → EReal) = W4 m ρ c (Proc.devRef .tc main_v58) :=
    KHost.host2_v58 (F := Ideal) (W4 m ρ c)
  have e2 : (V5 m ρ c (Pipeline.arrRef spec2 2) : S10x1024.Idx → EReal)
      = extractStridedSlice S10x1024 ![0, 0] (m ((c : Thread nD τ).loc main_arg5) : S138x1024.Idx → EReal) slices_S138x1024_S10x1024_0_0 :=
    (KHost.host2_v59 (F := Ideal) (W4 m ρ c)).trans (by rw [W4_arg5])
  have e3 : (V5 m ρ c (Pipeline.arrRef spec2 3) : S128x1024.Idx → EReal)
      = extractStridedSlice S128x1024 ![10, 0] (m ((c : Thread nD τ).loc main_arg5) : S138x1024.Idx → EReal) slices_S138x1024_S128x1024_10_0 :=
    (KHost.host2_v60 (F := Ideal) (W4 m ρ c)).trans (by rw [W4_arg5])
  have e4 : (V5 m ρ c (Pipeline.arrRef spec2 4) : S1x1024.Idx → EReal)
      = shapeCast _ (m ((c : Thread nD τ).loc main_arg6) : S1024.Idx → EReal) shapeCasts_S1024_S1x1024 :=
    (KHost.host2_v61 (F := Ideal) (W4 m ρ c)).trans (by rw [W4_arg6])
  have e5 : (V5 m ρ c (Pipeline.arrRef spec2 5) : S1024x1.Idx → EReal) = m ((c : Thread nD τ).loc main_arg7) :=
    W5_arg7 m ρ c
  have e6 : (V5 m ρ c (Pipeline.arrRef spec2 6) : S1x1.Idx → EReal)
      = shapeCast _ (m ((c : Thread nD τ).loc main_arg8) : S1.Idx → EReal) shapeCasts_S1_S1x1 :=
    (KHost.host2_v62 (F := Ideal) (W4 m ρ c)).trans (by rw [W4_arg8])
  exact readoutSplit_congr e0 e1 e2 e3 e4 e5 e6 i

end Cert.KernelIdeal.KValue

end
-- ==== Proof.RefLayers.lean ====
/-
  The reference's layers, read at an entry: each graph convolution is the weighted neighbourhood sum `Spec.agg` of a
  plain matrix product, plus a bias, rectified; the read-out is `Spec.readout` of the node features and the second
  convolution's output.
-/
import proofs.«180968_j47579647705688_2_alg».proof.Proof.Gen.ReferenceIdeal.Read
import proofs.«180968_j47579647705688_2_alg».proof.Proof.Spec
import proofs.«180968_j47579647705688_2_alg».proof.Proof.AggRead
import proofs.«180968_j47579647705688_2_alg».proof.Proof.Algebra
import proofs.«180968_j47579647705688_2_alg».proof.Proof.RefIndex

noncomputable section

open scoped BigOperators

namespace Cert.RefRead

open Cert.ReferenceIdeal Cert.ReferenceIdeal.Read Idealize.ShloMosaic Idealize.ShloMosaic.ValueIdx

variable (x0 : (⟨S50000x10, .f32⟩ : BufTy).Contents (Elt Ideal)) (x1 : (⟨S10x128, .f32⟩ : BufTy).Contents (Elt Ideal)) (x2 : (⟨S128, .f32⟩ : BufTy).Contents (Elt Ideal))
  (x3 : (⟨S128x128, .f32⟩ : BufTy).Contents (Elt Ideal)) (x4 : (⟨S128, .f32⟩ : BufTy).Contents (Elt Ideal)) (x5 : (⟨S138x1024, .f32⟩ : BufTy).Contents (Elt Ideal))
  (x6 : (⟨S1024, .f32⟩ : BufTy).Contents (Elt Ideal)) (x7 : (⟨S1024x1, .f32⟩ : BufTy).Contents (Elt Ideal)) (x8 : (⟨S1, .f32⟩ : BufTy).Contents (Elt Ideal))
  (x9 : (⟨S2x600000, .i32⟩ : BufTy).Contents (Elt Ideal))

/-- The first product `x · W1` at `(r, q)`. -/
theorem v4_apply (r : Fin 50000) (q : Fin 128) :
    val_main_v4 (F := Ideal) x0 x1 (ix2 r q) = ∑ t : Fin 10, x0 (ix2 r t) * x1 (ix2 t q) := by
  rw [val_main_v4_apply]
  refine Finset.sum_congr rfl fun t _ => ?_
  have el : lidx_main_v4 (ix2 r q) t = ix2 r t :=
    funext fun a => Fin.ext (by match a with | ⟨0, _⟩ => rfl | ⟨1, _⟩ => rfl)
  have er : ridx_main_v4 (ix2 r q) t = ix2 t q :=
    funext fun a => Fin.ext (by match a with | ⟨0, _⟩ => rfl | ⟨1, _⟩ => rfl)
  rw [el, er]

/-- The first convolution's aggregate at `(i, q)`. -/
theorem v40_apply (i : Fin 50000) (q : Fin 128) :
    val_main_v40 (F := Ideal) x0 x1 x9 (ix2 i q)
      = Cert.Spec.agg (val_main_v39 (F := Ideal) x9) (val_main_v33 (F := Ideal) x9) (val_main_v27 (F := Ideal) x9) (val_main_v4 (F := Ideal) x0 x1) i q := by
  unfold val_main_v40 val_main_v37 val_main_v38 val_main_v36 val_main_v35 val_main_v34 val_main_cst_6
  exact Cert.Spec.agg_read scatter_S50000x128_S650000x1_S650000x128_1_0_0_1 rfl rfl rfl rfl
    gather_S50000x128_S650000x1_S650000x128_1_0_n_n_0_1_1128 rfl rfl rfl rfl rfl rfl rfl
    _ _ _
    (val_main_v39 (F := Ideal) x9) (val_main_v33 (F := Ideal) x9) (val_main_v27 (F := Ideal) x9)
    (val_main_v4 (F := Ideal) x0 x1) i q

/-- The first hidden table at `(i, q)`: the aggregate plus the bias, rectified. -/
theorem v44_apply (i : Fin 50000) (q : Fin 128) :
    val_main_v44 (F := Ideal) x0 x1 x2 x9 (ix2 i q) = max (val_main_v40 (F := Ideal) x0 x1 x9 (ix2 i q) + x2 (ix1 q)) 0 := by
  have hz : (FloatOps.ofBits (F := Ideal) .f32 0x00000000#32 : EReal) = 0 := Ideal.ofBits_zero_f32
  rw [val_main_v44_apply, val_main_v43_apply, val_main_call0_v0_apply, val_main_call0_cst_apply,
    val_main_v42_apply, val_main_v41_apply, Ideal.maximumf_def, Ideal.addf_def, hz]
  have e : idx_main_v41 (idx_main_v42 (ix2 i q)) = ix1 q :=
    funext fun a => Fin.ext (by match a with | ⟨0, _⟩ => rfl)
  rw [e]

/-- The second product `h1 · W2` at `(r, q)`. -/
theorem v45_apply (r : Fin 50000) (q : Fin 128) :
    val_main_v45 (F := Ideal) x0 x1 x2 x3 x9 (ix2 r q)
      = ∑ t : Fin 128, val_main_v44 (F := Ideal) x0 x1 x2 x9 (ix2 r t) * x3 (ix2 t q) := by
  rw [val_main_v45_apply]
  refine Finset.sum_congr rfl fun t _ => ?_
  have el : lidx_main_v45 (ix2 r q) t = ix2 r t :=
    funext fun a => Fin.ext (by match a with | ⟨0, _⟩ => rfl | ⟨1, _⟩ => rfl)
  have er : ridx_main_v45 (ix2 r q) t = ix2 t q :=
    funext fun a => Fin.ext (by match a with | ⟨0, _⟩ => rfl | ⟨1, _⟩ => rfl)
  rw [el, er]

/-- The second convolution's aggregate at `(i, q)`, over the FIRST convolution's bookkeeping. -/
theorem v81_apply (i : Fin 50000) (q : Fin 128) :
    val_main_v81 (F := Ideal) x0 x1 x2 x3 x9 (ix2 i q)
      = Cert.Spec.agg (val_main_v39 (F := Ideal) x9) (val_main_v33 (F := Ideal) x9) (val_main_v27 (F := Ideal) x9)
          (val_main_v45 (F := Ideal) x0 x1 x2 x3 x9) i q := by
  rw [← dc2 x9, ← sc2 x9, ← nr2 x9]
  unfold val_main_v81 val_main_v78 val_main_v79 val_main_v77 val_main_v76 val_main_v75 val_main_cst_15
  exact Cert.Spec.agg_read scatter_S50000x128_S650000x1_S650000x128_1_0_0_1 rfl rfl rfl rfl
    gather_S50000x128_S650000x1_S650000x128_1_0_n_n_0_1_1128 rfl rfl rfl rfl rfl rfl rfl
    _ _ _
    (val_main_v80 (F := Ideal) x9) (val_main_v74 (F := Ideal) x9) (val_main_v68 (F := Ideal) x9)
    (val_main_v45 (F := Ideal) x0 x1 x2 x3 x9) i q

/-- The second hidden table at `(i, q)`. -/
theorem v85_apply (i : Fin 50000) (q : Fin 128) :
    val_main_v85 (F := Ideal) x0 x1 x2 x3 x4 x9 (ix2 i q)
      = max (val_main_v81 (F := Ideal) x0 x1 x2 x3 x9 (ix2 i q) + x4 (ix1 q)) 0 := by
  have hz : (FloatOps.ofBits (F := Ideal) .f32 0x00000000#32 : EReal) = 0 := Ideal.ofBits_zero_f32
  rw [val_main_v85_apply, val_main_v84_apply, val_main_call1_v0_apply, val_main_call1_cst_apply,
    val_main_v83_apply, val_main_v82_apply, Ideal.maximumf_def, Ideal.addf_def, hz]
  have e : idx_main_v82 (idx_main_v83 (ix2 i q)) = ix1 q :=
    funext fun a => Fin.ext (by match a with | ⟨0, _⟩ => rfl)
  rw [e]

/-- The joined table's first ten columns are the node features. -/
theorem v86_left (r : Fin 50000) (k : Fin 10) :
    val_main_v86 (F := Ideal) x0 x1 x2 x3 x4 x9 (ix2 r (⟨k.val, by omega⟩ : Fin 138)) = x0 (ix2 r k) := by
  unfold val_main_v86
  refine concatenate_pair_apply_left 1 x0 (val_main_v85 (F := Ideal) x0 x1 x2 x3 x4 x9) _ (ix2 r (⟨k.val, by omega⟩ : Fin 138)) rfl (ix2 r k) ?_
  intro b
  match b with
  | ⟨0, _⟩ => rfl
  | ⟨1, _⟩ => rfl

/-- Its last 128 columns are the second hidden table. -/
theorem v86_right (r : Fin 50000) (k : Fin 128) :
    val_main_v86 (F := Ideal) x0 x1 x2 x3 x4 x9 (ix2 r (⟨10 + k.val, by omega⟩ : Fin 138))
      = val_main_v85 (F := Ideal) x0 x1 x2 x3 x4 x9 (ix2 r k) := by
  unfold val_main_v86
  refine concatenate_pair_apply_right 1 x0 (val_main_v85 (F := Ideal) x0 x1 x2 x3 x4 x9) _ (ix2 r (⟨10 + k.val, by omega⟩ : Fin 138)) rfl rfl (ix2 r k) ?_ ?_
  · intro b hb
    match b with
    | ⟨0, _⟩ => rfl
    | ⟨1, _⟩ => exact absurd rfl hb
  · show k.val + 10 = 10 + k.val
    omega

/-- The read-out's first product at `(i, j)`. -/
theorem v87_read (i : Fin 50000) (j : Fin 1024) :
    val_main_v87 (F := Ideal) x0 x1 x2 x3 x4 x5 x9 (ix2 i j)
      = ∑ k : Fin 138, val_main_v86 (F := Ideal) x0 x1 x2 x3 x4 x9 (ix2 i k) * x5 (ix2 k j) := by
  rw [val_main_v87_apply]
  refine Finset.sum_congr rfl fun t _ => ?_
  have el : lidx_main_v87 (ix2 i j) t = ix2 i t :=
    funext fun a => Fin.ext (by match a with | ⟨0, _⟩ => rfl | ⟨1, _⟩ => rfl)
  have er : ridx_main_v87 (ix2 i j) t = ix2 t j :=
    funext fun a => Fin.ext (by match a with | ⟨0, _⟩ => rfl | ⟨1, _⟩ => rfl)
  rw [el, er]

/-- The read-out's hidden layer at `(i, j)`. -/
theorem v91_read (i : Fin 50000) (j : Fin 1024) :
    val_main_v91 (F := Ideal) x0 x1 x2 x3 x4 x5 x6 x9 (ix2 i j)
      = max ((∑ k : Fin 138, val_main_v86 (F := Ideal) x0 x1 x2 x3 x4 x9 (ix2 i k) * x5 (ix2 k j)) + x6 (ix1 j)) 0 := by
  have hz : (FloatOps.ofBits (F := Ideal) .f32 0x00000000#32 : EReal) = 0 := Ideal.ofBits_zero_f32
  rw [val_main_v91_apply, val_main_v90_apply, val_main_call2_v0_apply, val_main_call2_cst_apply,
    val_main_v89_apply, val_main_v88_apply, Ideal.maximumf_def, Ideal.addf_def, hz, v87_read]
  have e : idx_main_v88 (idx_main_v89 (ix2 i j)) = ix1 j :=
    funext fun a => Fin.ext (by match a with | ⟨0, _⟩ => rfl)
  rw [e]

/-- The read-out's second product plus its bias at `(i, 0)`. -/
theorem v95_read (i : Fin 50000) :
    val_main_v95 (F := Ideal) x0 x1 x2 x3 x4 x5 x6 x7 x8 x9 (ix2 i 0)
      = (∑ j : Fin 1024, val_main_v91 (F := Ideal) x0 x1 x2 x3 x4 x5 x6 x9 (ix2 i j) * x7 (ix2 j 0)) + x8 (ix1 0) := by
  rw [val_main_v95_apply, val_main_v94_apply, val_main_v93_apply, Ideal.addf_def, val_main_v92_apply]
  have e : idx_main_v93 (idx_main_v94 (ix2 i 0)) = ix1 0 :=
    funext fun a => Fin.ext (by match a with | ⟨0, _⟩ => rfl)
  have hs : (∑ t : Fin 1024, val_main_v91 (F := Ideal) x0 x1 x2 x3 x4 x5 x6 x9 (lidx_main_v92 (ix2 i 0) t)
        * x7 (ridx_main_v92 (ix2 i 0) t))
      = ∑ j : Fin 1024, val_main_v91 (F := Ideal) x0 x1 x2 x3 x4 x5 x6 x9 (ix2 i j) * x7 (ix2 j 0) := by
    refine Finset.sum_congr rfl fun t _ => ?_
    have el : lidx_main_v92 (ix2 i 0) t = ix2 i t :=
      funext fun a => Fin.ext (by match a with | ⟨0, _⟩ => rfl | ⟨1, _⟩ => rfl)
    have er : ridx_main_v92 (ix2 i 0) t = ix2 t 0 :=
      funext fun a => Fin.ext (by match a with | ⟨0, _⟩ => rfl | ⟨1, _⟩ => rfl)
    rw [el, er]
  rw [e, hs]

/-- The result at `(i, 0)`: the read-out of the node features and the second hidden table. -/
theorem v101_apply (i : Fin 50000) :
    val_main_v101 (F := Ideal) x0 x1 x2 x3 x4 x5 x6 x7 x8 x9 (ix2 i 0)
      = Cert.Spec.readout x0 (val_main_v85 (F := Ideal) x0 x1 x2 x3 x4 x9) x5 (fun j => x6 (ix1 j)) (fun j => x7 (ix2 j 0))
          (x8 (ix1 0)) i := by
  have h1 : (FloatOps.ofBits (F := Ideal) .f32 0x3F800000#32 : EReal) = 1 := Ideal.ofBits_one_f32
  rw [val_main_v101_apply, val_main_v100_apply, val_main_cst_17_apply, val_main_v99_apply, val_main_v98_apply,
    val_main_cst_16_apply, val_main_v97_apply, val_main_v96_apply, Ideal.hostDivf_def, Ideal.addf_def,
    Ideal.hostUnary_exp_def, Ideal.hostNegf_def, Ideal.negf_def, h1, v95_read]
  simp only [v91_read]
  exact Cert.Spec.readout_of_concat x0 (val_main_v85 (F := Ideal) x0 x1 x2 x3 x4 x9) (val_main_v86 (F := Ideal) x0 x1 x2 x3 x4 x9)
    (v86_left x0 x1 x2 x3 x4 x9) (v86_right x0 x1 x2 x3 x4 x9) x5 (fun j => x6 (ix1 j)) (fun j => x7 (ix2 j 0)) (x8 (ix1 0)) i

end Cert.RefRead

end
-- ==== Proof.Layers.lean ====
/-
  The two programs' layers agree. The kernel aggregates a table and then multiplies it by the layer's weights; the
  reference multiplies first and aggregates afterwards. For real tables and real edge weights the two orders give
  the same hidden table (`Spec.dense_of_agg`), layer after layer: the first hidden tables agree, they are real, and so
  the second ones agree. The read-out given its weight matrix in two row blocks is the read-out of the whole matrix.
-/
import proofs.«180968_j47579647705688_2_alg».proof.Proof.Algebra

noncomputable section

open scoped BigOperators

namespace Cert.Spec

open Idealize.ShloMosaic Idealize.ShloMosaic.ValueIdx Cert.Lib.ScatterRows

/-- The kernel's hidden tables `H1K`, `H2K` (dense layers of aggregated tables `A1`, `A2`) are the reference's `H1R`,
    `H2R` (rectified, biased aggregates of the products `P1`, `P2`). -/
theorem layers_agree
    (dc sc : IVec ⟨2, ![650000, 1]⟩ 32) (nr : (⟨1, ![650000]⟩ : Shape).Idx → EReal)
    (x0 : (⟨2, ![50000, 10]⟩ : Shape).Idx → EReal) (x1 : (⟨2, ![10, 128]⟩ : Shape).Idx → EReal) (b1 : Fin 128 → EReal)
    (x3 : (⟨2, ![128, 128]⟩ : Shape).Idx → EReal) (b2 : Fin 128 → EReal)
    (A1 : (⟨2, ![50000, 10]⟩ : Shape).Idx → EReal) (H1K A2 H2K P1 H1R P2 H2R : (⟨2, ![50000, 128]⟩ : Shape).Idx → EReal)
    (hA1 : ∀ (i : Fin 50000) (k : Fin 10), A1 (ix2 i k) = agg dc sc nr x0 i k)
    (hH1K : ∀ (i : Fin 50000) (q : Fin 128), H1K (ix2 i q) = dense A1 x1 b1 i q)
    (hA2 : ∀ (i : Fin 50000) (k : Fin 128), A2 (ix2 i k) = agg dc sc nr H1K i k)
    (hH2K : ∀ (i : Fin 50000) (q : Fin 128), H2K (ix2 i q) = dense A2 x3 b2 i q)
    (hP1 : ∀ (r : Fin 50000) (q : Fin 128), P1 (ix2 r q) = ∑ t : Fin 10, x0 (ix2 r t) * x1 (ix2 t q))
    (hH1R : ∀ (i : Fin 50000) (q : Fin 128), H1R (ix2 i q) = max (agg dc sc nr P1 i q + b1 q) 0)
    (hP2 : ∀ (r : Fin 50000) (q : Fin 128), P2 (ix2 r q) = ∑ t : Fin 128, H1R (ix2 r t) * x3 (ix2 t q))
    (hH2R : ∀ (i : Fin 50000) (q : Fin 128), H2R (ix2 i q) = max (agg dc sc nr P2 i q + b2 q) 0)
    (rx0 : ∀ j, IsReal (x0 j)) (rx1 : ∀ j, IsReal (x1 j)) (rb1 : ∀ q, IsReal (b1 q)) (rx3 : ∀ j, IsReal (x3 j))
    (rnr : ∀ j, IsReal (nr j)) :
    H2K = H2R := by
  -- the first hidden tables agree, entry by entry
  have e1 : H1K = H1R := by
    funext j
    obtain ⟨a, b, rfl⟩ : ∃ (a : Fin 50000) (b : Fin 128), j = ix2 a b := ⟨j 0, j 1, eq_ix2 j⟩
    rw [hH1K, hH1R]
    exact dense_of_agg dc sc nr x0 x1 A1 hA1 P1 hP1 b1 rx0 rx1 rnr a b
  -- the aggregated input table is real
  have rA1 : ∀ j, IsReal (A1 j) := by
    intro j
    obtain ⟨a, b, rfl⟩ : ∃ (a : Fin 50000) (b : Fin 10), j = ix2 a b := ⟨j 0, j 1, eq_ix2 j⟩
    rw [hA1]
    exact agg_real dc sc nr x0 rx0 rnr a b
  -- so the first hidden table is real: a dense layer of real tables
  have rH1K : ∀ j, IsReal (H1K j) := by
    intro j
    obtain ⟨a, b, rfl⟩ : ∃ (a : Fin 50000) (b : Fin 128), j = ix2 a b := ⟨j 0, j 1, eq_ix2 j⟩
    rw [hH1K]
    exact dense_real A1 x1 b1 rA1 rx1 rb1 a b
  -- the reference's second product is the product of the kernel's first hidden table
  have hP2' : ∀ (r : Fin 50000) (q : Fin 128), P2 (ix2 r q) = ∑ t : Fin 128, H1K (ix2 r t) * x3 (ix2 t q) := by
    intro r q
    rw [hP2, e1]
  -- and the second hidden tables agree
  funext j
  obtain ⟨a, b, rfl⟩ : ∃ (a : Fin 50000) (b : Fin 128), j = ix2 a b := ⟨j 0, j 1, eq_ix2 j⟩
  rw [hH2K, hH2R]
  exact dense_of_agg dc sc nr H1K x3 A2 hA2 P2 hP2' b2 rH1K rx3 rnr a b

/-- The read-out over the two row blocks `Wa`, `Wb` of `W`, with the biases laid out as one-row tables, is the
    read-out over `W`. -/
theorem readout_agree (x : (⟨2, ![50000, 10]⟩ : Shape).Idx → EReal) (h : (⟨2, ![50000, 128]⟩ : Shape).Idx → EReal)
    (W : (⟨2, ![138, 1024]⟩ : Shape).Idx → EReal)
    (Wa : (⟨2, ![10, 1024]⟩ : Shape).Idx → EReal) (Wb : (⟨2, ![128, 1024]⟩ : Shape).Idx → EReal)
    (brow : (⟨2, ![1, 1024]⟩ : Shape).Idx → EReal) (b : Fin 1024 → EReal)
    (w2 : (⟨2, ![1024, 1]⟩ : Shape).Idx → EReal) (b2t : (⟨2, ![1, 1]⟩ : Shape).Idx → EReal) (b2 : EReal)
    (hWa : ∀ (k : Fin 10) (j : Fin 1024), Wa (ix2 k j) = W (ix2 (⟨k.val, by omega⟩ : Fin 138) j))
    (hWb : ∀ (k : Fin 128) (j : Fin 1024), Wb (ix2 k j) = W (ix2 (⟨10 + k.val, by omega⟩ : Fin 138) j))
    (hb : ∀ j : Fin 1024, brow (ix2 0 j) = b j) (hb2 : b2t (ix2 0 0) = b2) (i : Fin 50000) :
    readoutSplit x h Wa Wb brow w2 b2t i = readout x h W b (fun j => w2 (ix2 j 0)) b2 i := by
  simp only [readoutSplit, readout, hWa, hWb, hb, hb2]

end Cert.Spec

end
-- ==== Proof.PreReal.lean ====
/-
  What the precondition gives: it says of every float argument that each entry's absolute value is below +∞, and
  it holds on every device; so every entry of the node features, of the two convolution weight matrices and of the
  first bias is a real number (neither infinity).
-/
import proofs.«180968_j47579647705688_2_alg».proof.Defs
import proofs.«180968_j47579647705688_2_alg».proof.Proof.Gen.Pre_finite_inputs
import proofs.«180968_j47579647705688_2_alg».proof.Proof.Gen.KernelIdeal
import proofs.«180968_j47579647705688_2_alg».proof.Proof.Algebra
import Idealize.ShloMosaic.Lib.ReduceAll

noncomputable section

namespace Cert.PreReal

open Idealize.ShloMosaic Idealize.SL.Sem Cert.KernelIdeal

/-- A rank-0 array has one index. -/
local instance : Subsingleton Cert.Pre_finite_inputs.S_.Idx := ⟨fun a b => funext fun d => d.elim0⟩

/-- The word `0x7F800000` is +∞. -/
theorem inf_word : Ideal.ofBits .f32 0x7F800000#32 = ⊤ := by simp [Ideal.ofBits, Ideal.ieee]

/-- An extended real whose absolute value `max x (−x)` compares below +∞ is a real number: both infinities have
    absolute value +∞. -/
theorem isReal_of_abs_lt_inf (x : EReal)
    (h : Ideal.cmp .olt (max x (-x)) (Ideal.ofBits .f32 0x7F800000#32) = 1#1) : Cert.Spec.IsReal x := by
  rw [inf_word] at h
  have h' : max x (-x) < ⊤ := by
    by_contra hn
    simp [Ideal.cmp, hn] at h
  induction x using EReal.rec with
  | bot => simp at h'
  | coe r => exact ⟨r, rfl⟩
  | top => simp at h'

/-- One conjunct of the precondition, decoded: if "every entry's absolute value is below +∞", reduced by `and` over
    the whole array, is true, then every entry of the array is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) :
    ∀ j, Cert.Spec.IsReal (x j) := fun j =>
  isReal_of_abs_lt_inf (x j) (Host.reduce_andi_all _ _ hr hu ValueIdx.ix0 h j)

/-- Under the precondition, on every device, the arguments 0 (node features), 1 (first weights), 2 (first bias) and
    3 (second weights) hold real numbers at every index. -/
theorem args_real (m : (ℓ : Loc nD τ sig) → Buf (Elt Ideal) ℓ) (h : Cert.Pre_KernelIdeal m) (c : Dev nD) :
    (∀ j, Cert.Spec.IsReal (m ((c.tc : Thread nD τ).loc main_arg0) j))
    ∧ (∀ j, Cert.Spec.IsReal (m ((c.tc : Thread nD τ).loc main_arg1) j))
    ∧ (∀ j, Cert.Spec.IsReal (m ((c.tc : Thread nD τ).loc main_arg2) j))
    ∧ (∀ j, Cert.Spec.IsReal (m ((c.tc : Thread nD τ).loc main_arg3) j)) := by
  have e := congrFun (h c) ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h1⟩, h2⟩, h3⟩, -⟩, -⟩, -⟩, -⟩, -⟩ := e
  exact ⟨all_real _ _ _ _ h0, all_real _ _ _ _ h1, all_real _ _ _ _ h2, all_real _ _ _ _ h3⟩

end Cert.PreReal

end
-- ==== Proof.Bridge.lean ====
/-
  The kernel program's result is the reference's. Both hidden tables agree (aggregating before or after the layer's
  matrix product gives the same table when every factor is a real number: the precondition makes the node features,
  the convolution weights and the first bias real, and every edge weight is real because every in-degree is at least
  one), and the read-out over the two row blocks of its weight matrix is the read-out over the whole matrix.
-/
import proofs.«180968_j47579647705688_2_alg».proof.Proof.KValue
import proofs.«180968_j47579647705688_2_alg».proof.Proof.RefLayers
import proofs.«180968_j47579647705688_2_alg».proof.Proof.Layers
import proofs.«180968_j47579647705688_2_alg».proof.Proof.PreReal

set_option maxRecDepth 16384

noncomputable section

open scoped BigOperators

namespace Cert.Bridge

open Cert.KernelIdeal Cert.KernelIdeal.Gen Idealize.ShloMosaic Idealize.ShloMosaic.TcCoe Idealize.SL.Sem
open Idealize.ShloMosaic.ValueIdx Cert.ReferenceIdeal.Read

variable (m : (ℓ : Loc nD τ sig) → Buf (Elt Ideal) ℓ) (ρ : Dev nD → PrngReg)

/-- The second hidden tables agree: the kernel's (the second launch's output array) is the reference's stage. -/
theorem hidden_eq (hpre : Cert.Pre_KernelIdeal m) (c : Dev nD) :
    (W4 m ρ c (Proc.devRef .tc main_v58) : S50000x128.Idx → EReal)
      = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) := by
  obtain ⟨r0, r1, r2, r3⟩ := Cert.PreReal.args_real m hpre c
  exact Cert.Spec.layers_agree
    (val_main_v39 (F := Ideal) (m ((c : Thread nD τ).loc main_arg9))) (val_main_v33 (F := Ideal) (m ((c : Thread nD τ).loc main_arg9))) (val_main_v27 (F := Ideal) (m ((c : Thread nD τ).loc main_arg9)))
    (m ((c : Thread nD τ).loc main_arg0)) (m ((c : Thread nD τ).loc main_arg1)) (fun q => ((m ((c : Thread nD τ).loc main_arg2)) : S128.Idx → EReal) (ix1 q))
    (m ((c : Thread nD τ).loc main_arg3)) (fun q => ((m ((c : Thread nD τ).loc main_arg4)) : S128.Idx → EReal) (ix1 q))
    (W1 m ρ c (Proc.devRef .tc main_v41)) (W2 m ρ c (Proc.devRef .tc main_v43))
    (W3 m ρ c (Proc.devRef .tc main_v56)) (W4 m ρ c (Proc.devRef .tc main_v58))
    (val_main_v4 (F := Ideal) (m ((c : Thread nD τ).loc main_arg0)) (m ((c : Thread nD τ).loc main_arg1)))
    (val_main_v44 (F := Ideal) (m ((c : Thread nD τ).loc main_arg0)) (m ((c : Thread nD τ).loc main_arg1)) (m ((c : Thread nD τ).loc main_arg2)) (m ((c : Thread nD τ).loc main_arg9)))
    (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg9)))
    (val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)))
    (Cert.KernelIdeal.KValue.A1_apply m ρ c) (Cert.KernelIdeal.KValue.H1K_apply m ρ c)
    (Cert.KernelIdeal.KValue.A2_apply m ρ c) (Cert.KernelIdeal.KValue.H2K_apply m ρ c)
    (Cert.RefRead.v4_apply _ _)
    (fun i q => by rw [Cert.RefRead.v44_apply, Cert.RefRead.v40_apply])
    (Cert.RefRead.v45_apply _ _ _ _ _)
    (fun i q => by rw [Cert.RefRead.v85_apply, Cert.RefRead.v81_apply])
    r0 r1 (fun q => r2 (ix1 q)) r3 (Cert.RefRead.nr_real _)

/-- The result buffer's last contents are the reference's result stage of the argument arrays. -/
theorem result_eq (hpre : Cert.Pre_KernelIdeal m) (c : Dev nD) :
    (W6 m ρ c (Proc.devRef .tc main_v63) : S50000x1.Idx → EReal)
      = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  obtain ⟨i, z, rfl⟩ : ∃ (i : Fin 50000) (z : Fin 1), j = ix2 i z := ⟨j 0, j 1, eq_ix2 j⟩
  obtain rfl : z = 0 := Subsingleton.elim _ _
  rw [Cert.KernelIdeal.KValue.out_apply, hidden_eq m ρ hpre c, Cert.RefRead.v101_apply]
  refine Cert.Spec.readout_agree _ _ _ _ _ _ _ _ _ _ (fun k j => ?_) (fun k j => ?_) (fun j => ?_) ?_ i
  · exact extractStridedSlice_apply ![0, 0] _ slices_S138x1024_S10x1024_0_0 (ix2 k j) (ix2 (⟨k.val, by omega⟩ : Fin 138) j)
      (fun a => match a with
        | ⟨0, _⟩ => by show k.val = 0 + k.val; omega
        | ⟨1, _⟩ => by show j.val = 0 + j.val; omega)
  · exact extractStridedSlice_apply ![10, 0] _ slices_S138x1024_S128x1024_10_0 (ix2 k j) (ix2 (⟨10 + k.val, by omega⟩ : Fin 138) j)
      (fun a => match a with
        | ⟨0, _⟩ => by show 10 + k.val = 10 + k.val; omega
        | ⟨1, _⟩ => by show j.val = 0 + j.val; omega)
  · exact shapeCast_a_1a_apply _ _ 0 j
  · exact shapeCast_a_1a_apply _ _ 0 0

end Cert.Bridge

end
-- ==== Proof.lean ====
/-
  A two-layer graph convolution network with a perceptron read-out, as three tiled launches among host operations,
  against the plain reference — equal results on the extended reals.

  Both programs build the same edge bookkeeping from the edge list: the given edges followed by one loop per node,
  each node's in-degree, and the weight of an edge, the product of the reciprocal square roots of the in-degrees of its
  two ends. They differ in three places. The kernel takes the maximum of an in-degree with one before the square root:
  every node's own loop lands on it, so an in-degree is a natural number at least one and the maximum changes
  nothing. The kernel aggregates a node table over the edges BEFORE multiplying by the layer's weights, the reference
  after: both are the double sum over edges and the contracted coordinate of (source entry) · (edge weight) ·
  (weight entry), equal as soon as every factor is a real number — here the precondition is used (node features,
  convolution weights and first bias are finite; the edge weights are real by the degree bound; the first hidden table
  is then real as well). The kernel multiplies the node features and the hidden features by the two row blocks of the
  read-out matrix and adds, the reference multiplies their concatenation by the whole matrix: a sum over 138 terms split
  as 10 + 128. The logistic function is `1 / (1 + exp (−z))` on both sides.

  The kernel's launches are read as whole arrays (each output array after its ten grid points is the dense layer, or
  the read-out, of the launch's input arrays, entry by entry), the host stretches between them one operation at a
  time, and the reference through its generated run and stage functions.
-/
import proofs.«180968_j47579647705688_2_alg».proof.Defs
import proofs.«180968_j47579647705688_2_alg».proof.Proof.Gen.Kernel
import proofs.«180968_j47579647705688_2_alg».proof.Proof.Gen.Kernel.Skeleton
import proofs.«180968_j47579647705688_2_alg».proof.Proof.Gen.Kernel.Launch
import proofs.«180968_j47579647705688_2_alg».proof.Proof.Gen.Kernel.Points
import proofs.«180968_j47579647705688_2_alg».proof.Proof.Gen.Kernel.Frame
import proofs.«180968_j47579647705688_2_alg».proof.Proof.Gen.KernelIdeal
import proofs.«180968_j47579647705688_2_alg».proof.Proof.Gen.KernelIdeal.Skeleton
import proofs.«180968_j47579647705688_2_alg».proof.Proof.Gen.KernelIdeal.Launch
import proofs.«180968_j47579647705688_2_alg».proof.Proof.Gen.KernelIdeal.Points
import proofs.«180968_j47579647705688_2_alg».proof.Proof.Gen.KernelIdeal.Frame
import proofs.«180968_j47579647705688_2_alg».proof.Proof.Gen.ReferenceIdeal
import proofs.«180968_j47579647705688_2_alg».proof.Proof.Gen.ReferenceIdeal.Run
import proofs.«180968_j47579647705688_2_alg».proof.Proof.Gen.ReferenceIdeal.Read
import proofs.«180968_j47579647705688_2_alg».proof.Proof.Gen.Pre_finite_inputs
import proofs.«180968_j47579647705688_2_alg».proof.Proof.KRun
import proofs.«180968_j47579647705688_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's result stage of the
    argument arrays in their result buffers: the kernel by `Bridge.result_eq`, the reference by its own run. -/
theorem algebraic : Cert.algebraic_KernelIdeal_ReferenceIdeal := by
  intro m ρ m' ρ' hpre hagree
  refine ⟨fun c => (Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :
      Buf (Elt Ideal) ((c.tc : Thread Cert.KernelIdeal.nD Cert.KernelIdeal.τ).loc Cert.KernelIdeal.main_v63)), ?_, ?_⟩
  · exact (θ_run Cert.KernelIdeal.defs _ _).mono
      (fun r h c => ⟨(h c).1.trans (Cert.Bridge.result_eq m ρ hpre c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v101_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
